-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S10000x512 : Shape := ⟨2, ![10000, 512]⟩
abbrev S100x10000 : Shape := ⟨2, ![100, 10000]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S100x10000 : S_.BroadcastsInDim S100x10000 (![] : Fin 0 → Fin S100x10000.rank)
  reducesTo_S100x10000_S_d0_1 : S100x10000.ReducesTo [0, 1] S_

variable [Facts]

def fn {F : FTy → Type} [FloatOps F] (main_arg0 : FVec F S4096x512 .f32) (main_arg1 : FVec F S10000x512 .f32) (main_arg2 : FVec F S100x10000 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S100x10000 .f32 := Host.absf main_arg2
  let main_cst_2 : FVec F S_ .f32 := constant S_ .f32 0x7F800000#32
  let main_v10 : FVec F S100x10000 .f32 := broadcastInDim S100x10000 ![] bcast_S_S100x10000 main_cst_2
  let main_v11 : IVec S100x10000 1 := cmpf .olt main_v9 main_v10
  let main_c_3 : IVec S_ 1 := constantI S_ 1 1#1
  let main_v12 : IVec S_ 1 := (fun x v => Host.reduce IntOp.andi x v reducesTo_S100x10000_S_d0_1 h_S_) main_v11 main_c_3
  let main_v13 : IVec S_ 1 := andi main_v8 main_v12
  main_v13
-- ==== Kernel.lean ====
abbrev S4096x512 : Shape := ⟨2, ![4096, 512]⟩
abbrev S10000x512 : Shape := ⟨2, ![10000, 512]⟩
abbrev S100x10000 : Shape := ⟨2, ![100, 10000]⟩
abbrev S4096x100 : Shape := ⟨2, ![4096, 100]⟩
abbrev S2048x512 : Shape := ⟨2, ![2048, 512]⟩
abbrev S1024x512 : Shape := ⟨2, ![1024, 512]⟩
abbrev S100x1024 : Shape := ⟨2, ![100, 1024]⟩
abbrev S2048x100 : Shape := ⟨2, ![2048, 100]⟩
abbrev S512x512 : Shape := ⟨2, ![512, 512]⟩
abbrev S100x512 : Shape := ⟨2, ![100, 512]⟩
abbrev S100x1 : Shape := ⟨2, ![100, 1]⟩
abbrev S100 : Shape := ⟨1, ![100]⟩
abbrev S2048 : Shape := ⟨1, ![2048]⟩
abbrev S2048x1 : Shape := ⟨2, ![2048, 1]⟩
abbrev S1x100 : Shape := ⟨2, ![1, 100]⟩

abbrev nBuf : Space → Nat
  | .hbm => 4
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S100x10000, .f32⟩
  | .hbm, ⟨3, _⟩ => ⟨S4096x100, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S100x1024, .f32⟩
  | .local _ .vmem, ⟨5, _⟩ => ⟨S100x1024, .f32⟩
  | .local _ .vmem, ⟨6, _⟩ => ⟨S2048x100, .f32⟩
  | .local _ .vmem, ⟨7, _⟩ => ⟨S2048x100, .f32⟩
  | .local _ .vmem, ⟨8, _⟩ => ⟨S512x512, .f32⟩
  | .local _ .vmem, ⟨9, _⟩ => ⟨S100x512, .f32⟩
  | .local _ .vmem, ⟨10, _⟩ => ⟨S100x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def k0_cond4 (i : grid0.Coords) : BitVec 1 :=
  let arg0 : BitVec 32 := BitVec.ofNat 32 (i 0).val
  let c10_i32 : BitVec 32 := 10#32
  let v11 : BitVec 1 := Scalar.cmpi .sge arg0 c10_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S100x1024_S100x1024_0_0 : ∀ a, (![0, 0] : Fin 2 → Nat) a + S100x1024.size a ≤ S100x1024.size a
  h_S100x1024 : 0 < S100x1024.numel
  bitsLt_bf16_f32 : FTy.bits .bf16 < FTy.bits .f32
  reduces_S100x1024_S100 : S100x1024.Reduces [1] S100
  shapeCasts_S100_S100x1 : S100.ShapeCasts S100x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S100x1_S100x1_0_0 : ∀ a, (![0, 0] : Fin 2 → Nat) a + S100x1.size a ≤ S100x1.size a
  h_S100x1 : 0 < S100x1.numel
  shapeCasts_S100x1_S100x1 : S100x1.ShapeCasts S100x1
  iota_S1024x512_d0_w32 : S1024x512.Iotas .tc 32 [0]
  iota_S100x1024_d1_w32 : S100x1024.Iotas .tc 32 [1]
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  shapeCasts_S100x1_S1x100 : S100x1.ShapeCasts S1x100
  broadcasts_S2048x1_S2048x100 : S2048x1.Broadcasts S2048x100
  broadcasts_S1x100_S2048x100 : S1x100.Broadcasts S2048x100
  inb_S2048x100_S2048x100_0_0 : ∀ a, (![0, 0] : Fin 2 → Nat) a + S2048x100.size a ≤ S2048x100.size a
  h_S2048x100 : 0 < S2048x100.numel
  dot_S1024x512_S1024x512_S512x512_0_0_1_1_n_n_wf : DotDims.WF S1024x512 S1024x512 S512x512 [0] [0] [1] [1] [] []
  dot_S100x1024_S1024x512_S100x512_1_0_0_1_n_n_wf : DotDims.WF S100x1024 S1024x512 S100x512 [1] [0] [0] [1] [] []
  dot_S2048x512_S512x512_S2048x512_1_0_0_1_n_n_wf : DotDims.WF S2048x512 S512x512 S2048x512 [1] [0] [0] [1] [] []
  dot_S2048x512_S100x512_S2048x100_1_1_0_0_n_n_wf : DotDims.WF S2048x512 S100x512 S2048x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S10000x512.size a
  hwx0_1 : ∀ i : grid0.Coords, EltTy.bits .f32 = 32 ∨ (Rect.unit (s := S10000x512) (fun a => cc0_transform_1 i a * S1024x512.size a) (fun a => (Pipeline.Clip.of (cc0_transform_1 i a) (S1024x512.size a) (S10000x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S10000x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S100x1024.size a < S100x10000.size a
  hwx0_2 : ∀ i : grid0.Coords, EltTy.bits .f32 = 32 ∨ (Rect.unit (s := S100x10000) (fun a => cc0_transform_2 i a * S100x1024.size a) (fun a => (Pipeline.Clip.of (cc0_transform_2 i a) (S100x1024.size a) (S100x10000.size a)).extent (S100x1024.size a)) fun a => Pipeline.Clip.inb (Pipeline.Clip.ok_of (hstart0_2 i a))).WholeWords (EltTy.packing .f32)
  hwxs0_2 : ∀ i : grid0.Coords, EltTy.bits .f32 = 32 ∨ (Rect.unit (s := S100x1024) (fun _ => 0) (fun a => (Pipeline.Clip.of (cc0_transform_2 i a) (S100x1024.size a) (S100x10000.size a)).extent (S100x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x100.size a ≤ S4096x100.size a
  hwx0_3 : ∀ i : grid0.Coords, EltTy.bits .f32 = 32 ∨ (Rect.block (s := S4096x100) S2048x100.size (cc0_transform_3 i) (hinb0_3 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S100x1024_S1024x512_S100x512_1_0_0_1_n_n : DotDims S100x1024 S1024x512 S100x512 where
  lhsContracting := [1]
  rhsContracting := [0]
  lhsNonContracting := [0]
  rhsNonContracting := [1]
  lhsBatch := []
  rhsBatch := []
  wf := dot_S100x1024_S1024x512_S100x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S100x512_S2048x100_1_1_0_0_n_n : DotDims S2048x512 S100x512 S2048x100 where
  lhsContracting := [1]
  rhsContracting := [1]
  lhsNonContracting := [0]
  rhsNonContracting := [0]
  lhsBatch := []
  rhsBatch := []
  wf := dot_S2048x512_S100x512_S2048x100_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S100x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S2048x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S10000x512 : Shape := ⟨2, ![10000, 512]⟩
abbrev S100x10000 : Shape := ⟨2, ![100, 10000]⟩
abbrev S512x10000 : Shape := ⟨2, ![512, 10000]⟩
abbrev S4096x10000 : Shape := ⟨2, ![4096, 10000]⟩
abbrev S_ : Shape := ⟨0, ![]⟩
abbrev S4096 : Shape := ⟨1, ![4096]⟩
abbrev S4096x1 : Shape := ⟨2, ![4096, 1]⟩
abbrev S100 : Shape := ⟨1, ![100]⟩
abbrev S100x1 : Shape := ⟨2, ![100, 1]⟩
abbrev S10000x100 : Shape := ⟨2, ![10000, 100]⟩
abbrev S4096x100 : Shape := ⟨2, ![4096, 100]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S10000x512, .f32⟩
  | .hbm, ⟨2, _⟩ => ⟨S100x10000, .f32⟩
  | .hbm, ⟨3, _⟩ => ⟨S512x10000, .f32⟩
  | .hbm, ⟨4, _⟩ => ⟨S4096x10000, .f32⟩
  | .hbm, ⟨5, _⟩ => ⟨S4096x10000, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x10000, .f32⟩
  | .hbm, ⟨15, _⟩ => ⟨S4096x10000, .f32⟩
  | .hbm, ⟨16, _⟩ => ⟨S100x10000, .f32⟩
  | .hbm, ⟨17, _⟩ => ⟨S_, .f32⟩
  | .hbm, ⟨18, _⟩ => ⟨S100, .f32⟩
  | .hbm, ⟨19, _⟩ => ⟨S100x1, .f32⟩
  | .hbm, ⟨20, _⟩ => ⟨S100x1, .f32⟩
  | .hbm, ⟨21, _⟩ => ⟨S_, .f32⟩
  | .hbm, ⟨22, _⟩ => ⟨S_, .f32⟩
  | .hbm, ⟨23, _⟩ => ⟨S100x1, .f32⟩
  | .hbm, ⟨24, _⟩ => ⟨S100x1, .f32⟩
  | .hbm, ⟨25, _⟩ => ⟨S100x10000, .f32⟩
  | .hbm, ⟨26, _⟩ => ⟨S100x10000, .f32⟩
  | .hbm, ⟨27, _⟩ => ⟨S10000x100, .f32⟩
  | .hbm, ⟨28, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call2_v0 : Ref sig .tc := ⟨.hbm, 16, rfl⟩
abbrev main_call2_cst : Ref sig .tc := ⟨.hbm, 17, rfl⟩
abbrev main_call2_v1 : Ref sig .tc := ⟨.hbm, 18, rfl⟩
abbrev main_call2_v2 : Ref sig .tc := ⟨.hbm, 19, rfl⟩
abbrev main_v6 : Ref sig .tc := ⟨.hbm, 20, rfl⟩
abbrev main_cst_0 : Ref sig .tc := ⟨.hbm, 21, rfl⟩
abbrev main_call3_v0 : Ref sig .tc := ⟨.hbm, 22, rfl⟩
abbrev main_call3_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  transposes_S10000x512_S512x10000_1_0 : S10000x512.Transposes [1, 0] S512x10000
  reducesTo_S4096x10000_S4096_d1 : S4096x10000.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x10000_0_1 : S4096x1.BroadcastsInDim S4096x10000 (![0, 1] : Fin 2 → Fin S4096x10000.rank)
  reducesTo_S100x10000_S100_d1 : S100x10000.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x10000_0_1 : S100x1.BroadcastsInDim S100x10000 (![0, 1] : Fin 2 → Fin S100x10000.rank)
  transposes_S100x10000_S10000x100_1_0 : S100x10000.Transposes [1, 0] S10000x100
  dot_S4096x512_S512x10000_S4096x10000_1_0_0_1_n_n_wf : DotDims.WF S4096x512 S512x10000 S4096x10000 [1] [0] [0] [1] [] []
  dot_S4096x10000_S10000x100_S4096x100_1_0_0_1_n_n_wf : DotDims.WF S4096x10000 S10000x100 S4096x100 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf
def dot_S4096x10000_S10000x100_S4096x100_1_0_0_1_n_n : DotDims S4096x10000 S10000x100 S4096x100 where
  lhsContracting := [1]
  rhsContracting := [0]
  lhsNonContracting := [0]
  rhsNonContracting := [1]
  lhsBatch := []
  rhsBatch := []
  wf := dot_S4096x10000_S10000x100_S4096x100_1_0_0_1_n_n_wf

class Facts : Prop extends Facts₀ where

variable [Facts]
-- ==== Proof.BitsRuns.lean ====
/-
  The kernel body, one control case at a time, on whole staging and scratch buffers at arbitrary contents.

  The grid has twelve points. The body branches on the point alone: point 0 stores the first hyperdimension block's
  three products (Wᵀ W, Cn W, the row sums of Cn²) into the three scratch buffers; points 1 … 8 add their block's
  products to them; point 9 does the same after replacing rows and lanes 784 … 1023 of its two blocks by 0; points
  10 and 11 read the three accumulators and one block of samples and store that block's scores. Each case leaves
  every buffer it does not store into as it found it.
-/
import proofs.«119552_g15693810500123_cont_7to1_75_24_alg».proof.Proof.Gen.Kernel.Frame
import proofs.«119552_g15693810500123_cont_7to1_75_24_alg».proof.Proof.Gen.Kernel.Skeleton
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four branch conditions, as the body computes them from the grid coordinate -/

abbrev cond1 (i : grid0.Coords) : Prop := (Scalar.cmpi .ne (Scalar.extui (Scalar.cmpi .eq (BitVec.ofNat 32 (i 0).val) 0#32)) 0#32) = 1#1
abbrev cond2 (i : grid0.Coords) : Prop := (Scalar.cmpi .ne (Scalar.extui (Scalar.andi (Scalar.cmpi .sgt (BitVec.ofNat 32 (i 0).val) 0#32) (Scalar.cmpi .slt (BitVec.ofNat 32 (i 0).val) 9#32))) 0#32) = 1#1
abbrev cond3 (i : grid0.Coords) : Prop := (Scalar.cmpi .ne (Scalar.extui (Scalar.cmpi .eq (BitVec.ofNat 32 (i 0).val) 9#32)) 0#32) = 1#1
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (0 < t.val ∧ t.val < 9) :=
  (by decide +kernel : ∀ t : Fin grid0.N, cond2 (grid0.coords t) ↔ (0 < t.val ∧ t.val < 9))
theorem hcond3 : ∀ t : Fin cfg0.N, cond3 (grid0.coords t) ↔ t.val = 9 :=
  (by decide +kernel : ∀ t : Fin grid0.N, cond3 (grid0.coords t) ↔ t.val = 9)
theorem hcond4 : ∀ t : Fin cfg0.N, cond4 (grid0.coords t) ↔ 10 ≤ t.val :=
  (by decide +kernel : ∀ t : Fin grid0.N, cond4 (grid0.coords t) ↔ 10 ≤ t.val)

/-! ## Whole-buffer loads and stores -/

/-- One store through the whole-shape rectangle leaves its payload, whatever the buffer held. -/
theorem read_store_whole {S : Shape} {e : EltTy} (a : Memref sig .tc .vmem S e) (f : a.view.ty.Contents (Elt F))
    {off : Fin S.rank → Nat} (hz : off = fun _ => 0) (inb : ∀ x, off x + S.size x ≤ S.size x) (w : S.Idx → Elt F e) :
    a.view.read (Elt F) (a.view.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- A load through the whole-shape rectangle of a whole buffer reads its contents. -/
theorem load_whole {S : Shape} {e : EltTy} (a : Memref sig .tc .vmem S e) (ha : a.IsWhole) (x : S.Idx → Elt F e)
    {off : Fin S.rank → Nat} (hz : off = fun _ => 0) (inb : ∀ y, off y + S.size y ≤ S.size y) :
    View.readAt (Elt F) a.view (Rect.unit off S.size inb).toLoadRect (ha.unread x) = x := by
  rw [View.readAt_eq_ld, ha.read_unread, View.ld_unit_zero hz]

theorem hz2 : (![0, 0] : Fin 2 → Nat) = fun _ => 0 := funext fun a => by fin_cases a <;> rfl

/-! ## The body, one control case at a time

  Point 0 stores the first block's three products into the scratch buffers; points 1 … 8 add theirs; point 9 adds
  the masked last block's; points 10, 11 read the three accumulators and store the scores into the output's buffer. -/

theorem runA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : cond1 i) (hc2 : ¬cond2 i) (hc3 : ¬cond3 i) (hc4 : ¬cond4 i)
    (x1 : Vec F S1024x512 .f32) (x2 : Vec F S100x1024 .f32) (E : Set ℕ) (K : PUnit → sProp 𝕄) :
    iprop(owns (c : Thread nD τ) arg2 fullShare x1 ∗ owns (c : Thread nD τ) arg3 fullShare x2
        ∗ (∃ q, owns (c : Thread nD τ) arg5 fullShare q) ∗ (∃ p, owns (c : Thread nD τ) arg6 fullShare p) ∗ (∃ w, owns (c : Thread nD τ) arg7 fullShare w)
        ∗ (iprop(owns (c : Thread nD τ) arg2 fullShare x1 ∗ owns (c : Thread nD τ) arg3 fullShare x2
            ∗ owns (c : Thread nD τ) arg5 fullShare (k0_pay2 x1) ∗ owns (c : Thread nD τ) arg6 fullShare (k0_pay3 x1 x2) ∗ owns (c : Thread nD τ) arg7 fullShare (k0_pay4 x2)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f2, %hf2, H2⟩, ⟨%f3, %hf3, H3⟩, ⟨%q, %f5, %hf5, H5⟩, ⟨%p, %f6, %hf6, H6⟩, ⟨%w, %f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2]
  isplitl [H6]
  · iexists _; isplitr
    swap; · iexact H6
    ipureintro
    rw [read_store_whole arg6 _ hz2]; simp only [load_whole arg2 harg2 _ hz2, load_whole arg3 harg3 _ hz2]
  · iexists _; isplitr
    swap; · iexact H7
    ipureintro
    rw [read_store_whole arg7 _ hz2]; simp only [load_whole arg3 harg3 _ hz2]

theorem runB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : cond2 i) (hc3 : ¬cond3 i) (hc4 : ¬cond4 i)
    (x1 : Vec F S1024x512 .f32) (x2 : Vec F S100x1024 .f32) (q : Vec F S512x512 .f32) (p : Vec F S100x512 .f32) (w : Vec F S100x1 .f32)
    (E : Set ℕ) (K : PUnit → sProp 𝕄) :
    iprop(owns (c : Thread nD τ) arg2 fullShare x1 ∗ owns (c : Thread nD τ) arg3 fullShare x2
        ∗ owns (c : Thread nD τ) arg5 fullShare q ∗ owns (c : Thread nD τ) arg6 fullShare p ∗ owns (c : Thread nD τ) arg7 fullShare w
        ∗ (iprop(owns (c : Thread nD τ) arg2 fullShare x1 ∗ owns (c : Thread nD τ) arg3 fullShare x2
            ∗ owns (c : Thread nD τ) arg5 fullShare (k0_pay6 x1 q) ∗ owns (c : Thread nD τ) arg6 fullShare (k0_pay7 x1 x2 p) ∗ owns (c : Thread nD τ) arg7 fullShare (k0_pay8 x2 w)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2, load_whole arg5 harg5 _ hz2]
  isplitl [H6]
  · iexists _; isplitr
    swap; · iexact H6
    ipureintro
    rw [read_store_whole arg6 _ hz2]; simp only [load_whole arg2 harg2 _ hz2, load_whole arg3 harg3 _ hz2, load_whole arg6 harg6 _ hz2]
  · iexists _; isplitr
    swap; · iexact H7
    ipureintro
    rw [read_store_whole arg7 _ hz2]; simp only [load_whole arg3 harg3 _ hz2, load_whole arg7 harg7 _ hz2]

theorem runC (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : ¬cond2 i) (hc3 : cond3 i) (hc4 : ¬cond4 i)
    (x1 : Vec F S1024x512 .f32) (x2 : Vec F S100x1024 .f32) (q : Vec F S512x512 .f32) (p : Vec F S100x512 .f32) (w : Vec F S100x1 .f32)
    (E : Set ℕ) (K : PUnit → sProp 𝕄) :
    iprop(owns (c : Thread nD τ) arg2 fullShare x1 ∗ owns (c : Thread nD τ) arg3 fullShare x2
        ∗ owns (c : Thread nD τ) arg5 fullShare q ∗ owns (c : Thread nD τ) arg6 fullShare p ∗ owns (c : Thread nD τ) arg7 fullShare w
        ∗ (iprop(owns (c : Thread nD τ) arg2 fullShare x1 ∗ owns (c : Thread nD τ) arg3 fullShare x2
            ∗ owns (c : Thread nD τ) arg5 fullShare (k0_pay12 x1 q) ∗ owns (c : Thread nD τ) arg6 fullShare (k0_pay13 x1 x2 p) ∗ owns (c : Thread nD τ) arg7 fullShare (k0_pay14 x2 w)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton]; unfold k0_part1_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2, load_whole arg5 harg5 _ hz2]
  isplitl [H6]
  · iexists _; isplitr
    swap; · iexact H6
    ipureintro
    rw [read_store_whole arg6 _ hz2]; simp only [load_whole arg2 harg2 _ hz2, load_whole arg3 harg3 _ hz2, load_whole arg6 harg6 _ hz2]
  · iexists _; isplitr
    swap; · iexact H7
    ipureintro
    rw [read_store_whole arg7 _ hz2]; simp only [load_whole arg3 harg3 _ hz2, load_whole arg7 harg7 _ hz2]

theorem runD (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : ¬cond2 i) (hc3 : ¬cond3 i) (hc4 : cond4 i)
    (x0 : Vec F S2048x512 .f32) (q : Vec F S512x512 .f32) (p : Vec F S100x512 .f32) (w : Vec F S100x1 .f32)
    (E : Set ℕ) (K : PUnit → sProp 𝕄) :
    iprop(owns (c : Thread nD τ) arg1 fullShare x0 ∗ (∃ o, owns (c : Thread nD τ) arg4 fullShare o)
        ∗ owns (c : Thread nD τ) arg5 fullShare q ∗ owns (c : Thread nD τ) arg6 fullShare p ∗ owns (c : Thread nD τ) arg7 fullShare w
        ∗ (iprop(owns (c : Thread nD τ) arg1 fullShare x0 ∗ owns (c : Thread nD τ) arg4 fullShare (k0_pay9 x0 q p w)
            ∗ owns (c : Thread nD τ) arg5 fullShare q ∗ owns (c : Thread nD τ) arg6 fullShare p ∗ owns (c : Thread nD τ) arg7 fullShare w) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%o, %f4, %hf4, H4⟩, ⟨%f5, %hf5, H5⟩, ⟨%f6, %hf6, H6⟩, ⟨%f7, %hf7, H7⟩, Hk⟩
  obtain rfl := harg1.eq_unread hf1; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  isplitl [H1]
  · iexists _; isplitr; · ipureintro; exact hf1
    iexact H1
  isplitl [H4]
  · iexists _; isplitr
    swap; · iexact H4
    ipureintro
    rw [read_store_whole arg4 _ hz2]; simp only [load_whole arg1 harg1 _ hz2, load_whole arg5 harg5 _ hz2, load_whole arg6 harg6 _ hz2, load_whole arg7 harg7 _ hz2]
  isplitl [H5]
  · iexists _; isplitr; · ipureintro; exact hf5
    iexact H5
  isplitl [H6]
  · iexists _; isplitr; · ipureintro; exact hf6
    iexact H6
  · iexists _; isplitr; · ipureintro; exact hf7
    iexact H7

end Cert.Kernel.Hand

end
-- ==== Proof.BitsData.lean ====
/-
  The proof data of the one pipeline: what every staging buffer and the three scratch accumulators hold, point by point.

  Windows 1 (projection rows, blocks of 1024 rows) and 2 (centroids, blocks of 1024 columns) overhang their arrays
  at their last block: of 10000 = 9 · 1024 + 784 entries the last block holds 784, and the rest of the buffer holds
  words nothing names. So a buffer of either window is stated as its block inside the array, filled out with some
  contents `d`; where a closed form is needed the filler is the zero word. The accumulators after point n are the
  recursion `scr`: the first block's products at point 0, the running sums up to point 9 (whose block is masked to
  its 784 valid entries by the body itself), unchanged afterwards. The output's buffer after points 10 and 11 is the
  score payload of that point's block of samples and the accumulators after point 9.
-/
import proofs.«119552_g15693810500123_cont_7to1_75_24_alg».proof.Proof.Gen.Kernel.Frame
import proofs.«119552_g15693810500123_cont_7to1_75_24_alg».proof.Proof.Gen.Kernel.Skeleton
import Idealize.ShloMosaic.Lib.Pipeline.Frame
import Idealize.ShloMosaic.Lib.Pipeline.FrameBody
import Idealize.ShloMosaic.Lib.Tactic
import Idealize.ShloMosaic.Lib.Pipeline.Value
import proofs.«119552_g15693810500123_cont_7to1_75_24_alg».proof.Proof.BitsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S100x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x100 .f32 := win0_3.stage (cfg0.slots t 3)
abbrev hs3 (t : Fin cfg0.N) : (ms3 t).IsWhole := hstage0_3 ((cfg0.slots t 3).cast nbuf0_3)
/-- The three scratch accumulators: Wᵀ W, Cn W, and the centroids' squared norms. -/
abbrev sc0 : Memref sig .tc .vmem S512x512 .f32 := Memref.whole cc0_scratch0
abbrev sc1 : Memref sig .tc .vmem S100x512 .f32 := Memref.whole cc0_scratch1
abbrev sc2 : Memref sig .tc .vmem S100x1 .f32 := Memref.whole cc0_scratch2

/-! ## What the clipped windows' buffers hold -/

/-- Window 1's buffer at point `t`: its block inside the array, filled out with `d`. -/
def buf1 (c : Dev nD) (t : Fin cfg0.N) (d : S1024x512.Idx → Elt F .f32) : Vec F S1024x512 .f32 :=
  win0_1.fill (grid0.coords t) d (iblk m c 1 t)
/-- Window 2's likewise. -/
def buf2 (c : Dev nD) (t : Fin cfg0.N) (d : S100x1024.Idx → Elt F .f32) : Vec F S100x1024 .f32 :=
  win0_2.fill (grid0.coords t) d (iblk m c 2 t)
/-- With the zero word as the filler. -/
def X1 (c : Dev nD) (t : Fin cfg0.N) : Vec F S1024x512 .f32 := buf1 m c t (fun _ => Scalar.ofBits .f32 0#32)
def X2 (c : Dev nD) (t : Fin cfg0.N) : Vec F S100x1024 .f32 := buf2 m c t (fun _ => Scalar.ofBits .f32 0#32)

/-! ## The accumulators after each point -/

/-- What the three scratch buffers hold after the body at point `n`. -/
def scr (c : Dev nD) : (n : ℕ) → n < cfg0.N → Vec F S512x512 .f32 × Vec F S100x512 .f32 × Vec F S100x1 .f32
  | 0, hn => (k0_pay2 (X1 m c ⟨0, hn⟩), k0_pay3 (X1 m c ⟨0, hn⟩) (X2 m c ⟨0, hn⟩), k0_pay4 (X2 m c ⟨0, hn⟩))
  | n + 1, hn =>
    if n + 1 < 9 then
      (k0_pay6 (X1 m c ⟨n + 1, hn⟩) (scr c n (Nat.lt_of_succ_lt hn)).1,
        k0_pay7 (X1 m c ⟨n + 1, hn⟩) (X2 m c ⟨n + 1, hn⟩) (scr c n (Nat.lt_of_succ_lt hn)).2.1,
        k0_pay8 (X2 m c ⟨n + 1, hn⟩) (scr c n (Nat.lt_of_succ_lt hn)).2.2)
    else if n + 1 = 9 then
      (k0_pay12 (X1 m c ⟨n + 1, hn⟩) (scr c n (Nat.lt_of_succ_lt hn)).1,
        k0_pay13 (X1 m c ⟨n + 1, hn⟩) (X2 m c ⟨n + 1, hn⟩) (scr c n (Nat.lt_of_succ_lt hn)).2.1,
        k0_pay14 (X2 m c ⟨n + 1, hn⟩) (scr c n (Nat.lt_of_succ_lt hn)).2.2)
    else scr c n (Nat.lt_of_succ_lt hn)

theorem scr_first (c : Dev nD) (t : Fin cfg0.N) (h : t.val = 0) :
    scr m c t.val t.isLt = (k0_pay2 (X1 m c t), k0_pay3 (X1 m c t) (X2 m c t), k0_pay4 (X2 m c t)) := by
  obtain ⟨n, hn⟩ := t
  cases n with
  | zero => rfl
  | succ n => exact absurd h (Nat.succ_ne_zero n)

theorem scr_interior (c : Dev nD) (t : Fin cfg0.N) (h0 : t.val ≠ 0) (h9 : t.val < 9) :
    scr m c t.val t.isLt
      = (k0_pay6 (X1 m c t) (scr m c (t.val - 1) (Nat.lt_of_le_of_lt (Nat.sub_le _ _) t.isLt)).1,
          k0_pay7 (X1 m c t) (X2 m c t) (scr m c (t.val - 1) (Nat.lt_of_le_of_lt (Nat.sub_le _ _) t.isLt)).2.1,
          k0_pay8 (X2 m c t) (scr m c (t.val - 1) (Nat.lt_of_le_of_lt (Nat.sub_le _ _) t.isLt)).2.2) := by
  obtain ⟨n, hn⟩ := t
  cases n with
  | zero => exact absurd rfl h0
  | succ n => exact (if_pos h9).trans rfl

theorem scr_edge (c : Dev nD) (t : Fin cfg0.N) (h9 : t.val = 9) :
    scr m c t.val t.isLt
      = (k0_pay12 (X1 m c t) (scr m c (t.val - 1) (Nat.lt_of_le_of_lt (Nat.sub_le _ _) t.isLt)).1,
          k0_pay13 (X1 m c t) (X2 m c t) (scr m c (t.val - 1) (Nat.lt_of_le_of_lt (Nat.sub_le _ _) t.isLt)).2.1,
          k0_pay14 (X2 m c t) (scr m c (t.val - 1) (Nat.lt_of_le_of_lt (Nat.sub_le _ _) t.isLt)).2.2) := by
  obtain ⟨n, hn⟩ := t
  cases n with
  | zero => exact absurd h9 (by show ¬((0 : ℕ) = 9); omega)
  | succ n =>
    have h9' : n + 1 = 9 := h9
    exact (if_neg (by omega)).trans ((if_pos h9').trans rfl)

theorem scr_later (c : Dev nD) (t : Fin cfg0.N) (h : 9 < t.val) :
    scr m c t.val t.isLt = scr m c (t.val - 1) (Nat.lt_of_le_of_lt (Nat.sub_le _ _) t.isLt) := by
  obtain ⟨n, hn⟩ := t
  cases n with
  | zero => exact absurd h (by show ¬(9 < (0 : ℕ)); omega)
  | succ n =>
    have h' : 9 < n + 1 := h
    exact (if_neg (by omega)).trans ((if_neg (by omega)).trans rfl)

theorem nine_lt : 9 < cfg0.N := by decide

/-- From point 9 on the accumulators are those after point 9. -/
theorem scr_from_nine (c : Dev nD) : ∀ (n : ℕ) (hn : n < cfg0.N), 9 ≤ n → scr m c n hn = scr m c 9 nine_lt
  | 0, _, h => absurd h (by decide)
  | n + 1, hn, h => by
    by_cases h9 : n + 1 = 9
    · subst_vars; simp only [h9]
    · have := scr_later m c ⟨n + 1, hn⟩ (by show 9 < n + 1; omega)
      rw [show scr m c (n + 1) hn = _ from this]
      exact scr_from_nine c n _ (by omega)

/-- The output's buffer after the body at a point that stores the scores. -/
def outAt (c : Dev nD) (t : Fin cfg0.N) : Vec F S2048x100 .f32 :=
  k0_pay9 (iblk m c 0 t) (scr m c 9 nine_lt).1 (scr m c 9 nine_lt).2.1 (scr m c 9 nine_lt).2.2

/-! ## The invariant -/

/-- Before point `n`: at the first point the scratch buffers hold anything; afterwards what the point before left. -/
def PhiS (c : Dev nD) : (n : ℕ) → n ≤ cfg0.N → sProp 𝕄
  | 0, _ => Pipeline.ΦA spec0 c
  | n + 1, hn => iprop(iprop(owns (c : Thread nD τ) sc0 fullShare (scr m c n hn).1 ∗ owns (c : Thread nD τ) sc1 fullShare (scr m c n hn).2.1
      ∗ owns (c : Thread nD τ) sc2 fullShare (scr m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (scr m c n hn).1 ∗ owns (c : Thread nD τ) sc1 fullShare (scr m c n hn).2.1
      ∗ owns (c : Thread nD τ) sc2 fullShare (scr m c n hn).2.2) ∗ (∃ r, prngReg c r)) := rfl

theorem PhiS_pos (c : Dev nD) (n : ℕ) (h : n ≤ cfg0.N) (hz : n ≠ 0) :
    PhiS m c n h = iprop(iprop(owns (c : Thread nD τ) sc0 fullShare (scr m c (n - 1) (by omega)).1 ∗ owns (c : Thread nD τ) sc1 fullShare (scr m c (n - 1) (by omega)).2.1
      ∗ owns (c : Thread nD τ) sc2 fullShare (scr m c (n - 1) (by omega)).2.2) ∗ (∃ r, prngReg c r)) := by
  cases n with
  | zero => exact absurd rfl hz
  | succ n => rfl

/-- The class invariant with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X1 m c t
    | ⟨2, _⟩ => X2 m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = X1 m c t := by dsimp only [dats]
theorem after2 (c : Dev nD) (t : Fin cfg0.N) : (dats m 0 c).after 2 t = X2 m c t := by dsimp only [dats]
theorem after3 (c : Dev nD) (t : Fin cfg0.N) : (dats m 0 c).after 3 t = outAt m c t := by dsimp only [dats]

/-! ## What the body finds in the input windows' buffers -/

theorem before0 (c : Dev nD) (t : Fin cfg0.N) (d) : (dats m 0 c).before 0 t d = iblk m c 0 t :=
  before0_0_of m (dats m 0 c) (A_eq m c 0) (after0 m c) t d

/-- A clipped window's cuts are a function of its block index. -/
theorem hclip1 : ∀ t t' : Fin cfg0.N, (cfg0.win 1).index t = (cfg0.win 1).index t' →
    (cfg0.win 1).clip (cfg0.grid.coords t) = (cfg0.win 1).clip (cfg0.grid.coords t') := by decide +kernel
theorem hclip2 : ∀ t t' : Fin cfg0.N, (cfg0.win 2).index t = (cfg0.win 2).index t' →
    (cfg0.win 2).clip (cfg0.grid.coords t) = (cfg0.win 2).clip (cfg0.grid.coords t') := by decide +kernel

theorem before1 (c : Dev nD) (t : Fin cfg0.N) (d) : (dats m 0 c).before 1 t d = buf1 m c t d := by
  rw [(dats m 0 c).before_in_eq_fetched 1 rfl (fun _ => rfl) hclip1 (fun t => by
    rw [after1]; unfold X1 buf1; rw [Window.cut_fill]; unfold Dat.blockOf iblk; rw [A_eq]) t d]
  unfold Dat.fetched Dat.blockOf buf1 iblk; rw [A_eq]

theorem before2 (c : Dev nD) (t : Fin cfg0.N) (d) : (dats m 0 c).before 2 t d = buf2 m c t d := by
  rw [(dats m 0 c).before_in_eq_fetched 2 rfl (fun _ => rfl) hclip2 (fun t => by
    rw [after2]; unfold X2 buf2; rw [Window.cut_fill]; unfold Dat.blockOf iblk; rw [A_eq]) t d]
  unfold Dat.fetched Dat.blockOf buf2 iblk; rw [A_eq]

end Cert.Kernel.Hand

end
-- ==== Proof.BitsBody.lean ====
/-
  The body obligation of the pipeline, the launch, and the frame.

  At every point the pipeline hands the body the four windows' current buffers and the invariant: window 0's
  buffer at its block of samples; windows 1 and 2's at their blocks inside the array, filled out with contents nothing
  names; the output's buffer at anything; the scratch accumulators at what the point before left. The closed forms
  of the four branch conditions say which case the point is in, and that case's run gives back what the proof data
  names. Two facts make the named contents independent of the unnamed filler: at points 0 … 8 nothing of a block is
  cut, so there is no filler; at point 9 the body replaces rows and lanes 784 … 1023 by zero before it uses them.
-/
import proofs.«119552_g15693810500123_cont_7to1_75_24_alg».proof.Proof.Gen.Kernel.Frame
import proofs.«119552_g15693810500123_cont_7to1_75_24_alg».proof.Proof.Gen.Kernel.Skeleton
import Idealize.ShloMosaic.Lib.Pipeline.Frame
import Idealize.ShloMosaic.Lib.Pipeline.FrameBody
import Idealize.ShloMosaic.Lib.Tactic
import Idealize.ShloMosaic.Lib.Pipeline.Value
import Idealize.ShloMosaic.Lib.ValueIdx
import proofs.«119552_g15693810500123_cont_7to1_75_24_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The filler does not matter -/

theorem xs1_full : ∀ t : Fin cfg0.N, t.val < 9 → win0_1.xsize (grid0.coords t) = win0_1.size :=
  (by decide +kernel : ∀ t : Fin grid0.N, t.val < 9 → win0_1.xsize (grid0.coords t) = win0_1.size)
theorem xs2_full : ∀ t : Fin cfg0.N, t.val < 9 → win0_2.xsize (grid0.coords t) = win0_2.size :=
  (by decide +kernel : ∀ t : Fin grid0.N, t.val < 9 → win0_2.xsize (grid0.coords t) = win0_2.size)
theorem xs1_edge : ∀ t : Fin cfg0.N, t.val = 9 → win0_1.xsize (grid0.coords t) = ![784, 512] :=
  (by decide +kernel : ∀ t : Fin grid0.N, t.val = 9 → win0_1.xsize (grid0.coords t) = ![784, 512])
theorem xs2_edge : ∀ t : Fin cfg0.N, t.val = 9 → win0_2.xsize (grid0.coords t) = ![100, 784] :=
  (by decide +kernel : ∀ t : Fin grid0.N, t.val = 9 → win0_2.xsize (grid0.coords t) = ![100, 784])

/-- Before the last block nothing is cut: the buffer is the block, whatever the filler. -/
theorem buf1_full (c : Dev nD) (t : Fin cfg0.N) (h : t.val < 9) (d d' : S1024x512.Idx → Elt F .f32) :
    buf1 m c t d = buf1 m c t d' := by
  funext j
  have hm : win0_1.moved (grid0.coords t) j = true :=
    (win0_1.moved_iff _ j).mpr fun a => by rw [xs1_full t h]; exact (j a).isLt
  unfold buf1 Window.fill; rw [dif_pos hm, dif_pos hm]
theorem buf2_full (c : Dev nD) (t : Fin cfg0.N) (h : t.val < 9) (d d' : S100x1024.Idx → Elt F .f32) :
    buf2 m c t d = buf2 m c t d' := by
  funext j
  have hm : win0_2.moved (grid0.coords t) j = true :=
    (win0_2.moved_iff _ j).mpr fun a => by rw [xs2_full t h]; exact (j a).isLt
  unfold buf2 Window.fill; rw [dif_pos hm, dif_pos hm]

/-- At the last block the rows below 784 are the block's, whatever the filler. -/
theorem buf1_edge (c : Dev nD) (t : Fin cfg0.N) (h : t.val = 9) (d d' : S1024x512.Idx → Elt F .f32)
    (j : S1024x512.Idx) (hj : (j 0).val < 784) : buf1 m c t d j = buf1 m c t d' j := by
  have hm : win0_1.moved (grid0.coords t) j = true :=
    (win0_1.moved_iff _ j).mpr fun a => by
      rw [xs1_edge t h]
      match a with
      | ⟨0, _⟩ => exact hj
      | ⟨1, _⟩ => exact ValueIdx.idx2_lt1 j
  unfold buf1 Window.fill; rw [dif_pos hm, dif_pos hm]
/-- And of window 2 the lanes below 784. -/
theorem buf2_edge (c : Dev nD) (t : Fin cfg0.N) (h : t.val = 9) (d d' : S100x1024.Idx → Elt F .f32)
    (j : S100x1024.Idx) (hj : (j 1).val < 784) : buf2 m c t d j = buf2 m c t d' j := by
  have hm : win0_2.moved (grid0.coords t) j = true :=
    (win0_2.moved_iff _ j).mpr fun a => by
      rw [xs2_edge t h]
      match a with
      | ⟨0, _⟩ => exact ValueIdx.idx2_lt0 j
      | ⟨1, _⟩ => exact hj
  unfold buf2 Window.fill; rw [dif_pos hm, dif_pos hm]

/-- A coordinate below 1024 that compares below 784 as a signed 32-bit word is below 784. -/
theorem slt784 : ∀ n : Fin 1024, IntOp.cmpi .slt (BitVec.ofNat 32 n.val) 784#32 = 1 → n.val < 784 := by decide +kernel

/-- The masked block of projection rows reads its argument only at rows below 784. -/
theorem pay11_congr (x x' : Vec F S1024x512 .f32) (h : ∀ j : S1024x512.Idx, (j 0).val < 784 → x j = x' j) :
    k0_pay11 x = k0_pay11 x' := by
  funext j
  simp only [k0_pay11, truncf, select, Scalar.select]
  by_cases hc : cmpi .slt (iota .tc S1024x512 32 [0] iota_S1024x512_d0_w32) (broadcast S1024x512 784#32) j = 1
  · rw [if_pos hc, if_pos hc, h j (by
      simp only [cmpi, iota, broadcast, List.foldl, Nat.zero_mul, Nat.zero_add] at hc
      exact slt784 ⟨(j 0).val, ValueIdx.idx2_lt0 j⟩ hc)]
  · rw [if_neg hc, if_neg hc]

/-- The masked block of centroids reads its argument only at lanes below 784. -/
theorem pay10_congr (x x' : Vec F S100x1024 .f32) (h : ∀ j : S100x1024.Idx, (j 1).val < 784 → x j = x' j) :
    k0_pay10 x = k0_pay10 x' := by
  funext j
  simp only [k0_pay10, select, Scalar.select]
  by_cases hc : cmpi .slt (iota .tc S100x1024 32 [1] iota_S100x1024_d1_w32) (broadcast S100x1024 784#32) j = 1
  · rw [if_pos hc, if_pos hc, h j (by
      simp only [cmpi, iota, broadcast, List.foldl, Nat.zero_mul, Nat.zero_add] at hc
      exact slt784 ⟨(j 1).val, ValueIdx.idx2_lt1 j⟩ hc)]
  · rw [if_neg hc, if_neg hc]

theorem pay12_fill (c : Dev nD) (t : Fin cfg0.N) (h : t.val = 9) (d d' : S1024x512.Idx → Elt F .f32) (q : Vec F S512x512 .f32) :
    k0_pay12 (buf1 m c t d) q = k0_pay12 (buf1 m c t d') q := by
  unfold k0_pay12; rw [pay11_congr _ _ (buf1_edge m c t h d d')]
theorem pay13_fill (c : Dev nD) (t : Fin cfg0.N) (h : t.val = 9) (d d' : S1024x512.Idx → Elt F .f32) (e e' : S100x1024.Idx → Elt F .f32)
    (p : Vec F S100x512 .f32) :
    k0_pay13 (buf1 m c t d) (buf2 m c t e) p = k0_pay13 (buf1 m c t d') (buf2 m c t e') p := by
  unfold k0_pay13; rw [pay11_congr _ _ (buf1_edge m c t h d d'), pay10_congr _ _ (buf2_edge m c t h e e')]
theorem pay14_fill (c : Dev nD) (t : Fin cfg0.N) (h : t.val = 9) (e e' : S100x1024.Idx → Elt F .f32) (w : Vec F S100x1 .f32) :
    k0_pay14 (buf2 m c t e) w = k0_pay14 (buf2 m c t e') w := by
  unfold k0_pay14; rw [pay10_congr _ _ (buf2_edge m c t h e e')]

/-! ## Where the output window is idle -/

theorem idle3_of : ∀ t : Fin cfg0.N, ¬cond4 (grid0.coords t) → cfg0.idle 3 (grid0.coords t) = true :=
  (by decide +kernel : ∀ t : Fin grid0.N, ¬cond4 (grid0.coords t) → cfg0.idle 3 (grid0.coords t) = true)
theorem noflush3_of : ∀ t : Fin cfg0.N, ¬cond4 (grid0.coords t) → (cfg0.win 3).flush t = false :=
  (by decide +kernel : ∀ t : Fin grid0.N, ¬cond4 (grid0.coords t) → (cfg0.win 3).flush t = false)
theorem live3_of : ∀ t : Fin cfg0.N, cond4 (grid0.coords t) → cfg0.idle 3 (grid0.coords t) = false :=
  (by decide +kernel : ∀ t : Fin grid0.N, cond4 (grid0.coords t) → cfg0.idle 3 (grid0.coords t) = false)

/-! ## What the obligation asks of each window's buffer after the body -/

theorem leaves0 (c : Dev nD) (t : Fin cfg0.N) :
    (dats m 0 c).leaves 0 t = owns (c : Thread nD τ) (ms0 t) fullShare (iblk m c 0 t) := by
  have hi : cfg0.idle 0 (cfg0.grid.coords t) = false := rfl
  unfold Dat.leaves; rw [hi, after0]
theorem leaves1 (c : Dev nD) (t : Fin cfg0.N) :
    (dats m 0 c).leaves 1 t = iprop(∃ d, owns (c : Thread nD τ) (ms1 t) fullShare (buf1 m c t d)) := by
  have hi : cfg0.idle 1 (cfg0.grid.coords t) = false := rfl
  have hf : ∀ d, (cfg0.win 1).fill (cfg0.grid.coords t) d ((cfg0.win 1).cut (cfg0.grid.coords t) (X1 m c t)) = buf1 m c t d :=
    fun d => by unfold X1 buf1; rw [Window.cut_fill]
  unfold Dat.leaves; rw [hi, after1]; simp only [hf]; rfl
theorem leaves2 (c : Dev nD) (t : Fin cfg0.N) :
    (dats m 0 c).leaves 2 t = iprop(∃ d, owns (c : Thread nD τ) (ms2 t) fullShare (buf2 m c t d)) := by
  have hi : cfg0.idle 2 (cfg0.grid.coords t) = false := rfl
  have hf : ∀ d, (cfg0.win 2).fill (cfg0.grid.coords t) d ((cfg0.win 2).cut (cfg0.grid.coords t) (X2 m c t)) = buf2 m c t d :=
    fun d => by unfold X2 buf2; rw [Window.cut_fill]
  unfold Dat.leaves; rw [hi, after2]; simp only [hf]; rfl
theorem leaves3_idle (c : Dev nD) (t : Fin cfg0.N) (h : ¬cond4 (grid0.coords t)) :
    (dats m 0 c).leaves 3 t = iprop(∃ d, owns (c : Thread nD τ) (ms3 t) fullShare ((dats m 0 c).before 3 t d)) :=
  (dats m 0 c).leaves_idle 3 t (idle3_of t h) (noflush3_of t h)
theorem leaves3_live (c : Dev nD) (t : Fin cfg0.N) (h : cond4 (grid0.coords t)) :
    (dats m 0 c).leaves 3 t = owns (c : Thread nD τ) (ms3 t) fullShare (outAt m c t) := by
  unfold Dat.leaves; rw [live3_of t h, after3]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc]
  have hN : t.val < 12 := lt_of_lt_of_eq t.isLt (show cfg0.N = 12 from N_0)
  by_cases h0 : t.val = 0
  · -- the first block: the accumulators are stored
    have hc1 : cond1 (grid0.coords t) := (hcond1 t).mpr h0
    have hc2 : ¬cond2 (grid0.coords t) := fun h => by have := (hcond2 t).mp h; omega
    have hc3 : ¬cond3 (grid0.coords t) := fun h => by have := (hcond3 t).mp h; omega
    have hc4 : ¬cond4 (grid0.coords t) := fun h => by have := (hcond4 t).mp h; omega
    rw [leaves3_idle m c t hc4, scr_first m c t h0, PhiS_zero m c _ _ h0, PhiA_eq]
    iintro ⟨⟨⟨⟨%q, HS0⟩, ⟨%p, HS1⟩, ⟨%w, HS2⟩⟩, Hg⟩, Ho, ⟨%d0, H0⟩, ⟨%d1, H1⟩, ⟨%d2, H2⟩, H3⟩
    rw [show X1 m c t = buf1 m c t d1 from buf1_full m c t (by omega) _ _,
      show X2 m c t = buf2 m c t d2 from buf2_full m c t (by omega) _ _]
    iapply (runA (F := F) c (grid0.coords t) (ms0 t) (hs0 t) (ms1 t) (hs1 t) (ms2 t) (hs2 t) (ms3 t) (hs3 t)
      sc0 (Memref.isWhole_whole _) sc1 (Memref.isWhole_whole _) sc2 (Memref.isWhole_whole _) hc1 hc2 hc3 hc4
      (buf1 m c t d1) (buf2 m c t d2) Set.univ _)
    isplitl [H1]; · iexact H1
    isplitl [H2]; · iexact H2
    isplitl [HS0]; · iexists _; iexact HS0
    isplitl [HS1]; · iexists _; iexact HS1
    isplitl [HS2]; · iexists _; iexact HS2
    iintro ⟨H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexists _; iexact H1
    isplitl [H2]; · iexists _; iexact H2
    iexact H3
  · by_cases h9 : t.val < 9
    · -- an interior block: its products are added
      have hc1 : ¬cond1 (grid0.coords t) := fun h => h0 ((hcond1 t).mp h)
      have hc2 : cond2 (grid0.coords t) := (hcond2 t).mpr ⟨Nat.pos_of_ne_zero h0, h9⟩
      have hc3 : ¬cond3 (grid0.coords t) := fun h => by have := (hcond3 t).mp h; omega
      have hc4 : ¬cond4 (grid0.coords t) := fun h => by have := (hcond4 t).mp h; omega
      rw [leaves3_idle m c t hc4, scr_interior m c t h0 h9, PhiS_pos m c _ _ h0]
      iintro ⟨⟨⟨HS0, HS1, HS2⟩, Hg⟩, Ho, ⟨%d0, H0⟩, ⟨%d1, H1⟩, ⟨%d2, H2⟩, H3⟩
      rw [show X1 m c t = buf1 m c t d1 from buf1_full m c t h9 _ _,
        show X2 m c t = buf2 m c t d2 from buf2_full m c t h9 _ _]
      iapply (runB (F := F) c (grid0.coords t) (ms0 t) (hs0 t) (ms1 t) (hs1 t) (ms2 t) (hs2 t) (ms3 t) (hs3 t)
        sc0 (Memref.isWhole_whole _) sc1 (Memref.isWhole_whole _) sc2 (Memref.isWhole_whole _) hc1 hc2 hc3 hc4
        (buf1 m c t d1) (buf2 m c t d2) _ _ _ Set.univ _)
      isplitl [H1]; · iexact H1
      isplitl [H2]; · iexact H2
      isplitl [HS0]; · iexact HS0
      isplitl [HS1]; · iexact HS1
      isplitl [HS2]; · iexact HS2
      iintro ⟨H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexact H3
    · by_cases h9e : t.val = 9
      · -- the last block: masked to its valid entries, then added
        have hc1 : ¬cond1 (grid0.coords t) := fun h => h0 ((hcond1 t).mp h)
        have hc2 : ¬cond2 (grid0.coords t) := fun h => by have := (hcond2 t).mp h; omega
        have hc3 : cond3 (grid0.coords t) := (hcond3 t).mpr h9e
        have hc4 : ¬cond4 (grid0.coords t) := fun h => by have := (hcond4 t).mp h; omega
        rw [leaves3_idle m c t hc4, scr_edge m c t h9e, PhiS_pos m c _ _ h0]
        iintro ⟨⟨⟨HS0, HS1, HS2⟩, Hg⟩, Ho, ⟨%d0, H0⟩, ⟨%d1, H1⟩, ⟨%d2, H2⟩, H3⟩
        rw [show X1 m c t = buf1 m c t (fun _ => Scalar.ofBits .f32 0#32) from rfl,
          show X2 m c t = buf2 m c t (fun _ => Scalar.ofBits .f32 0#32) from rfl,
          pay12_fill m c t h9e _ d1, pay13_fill m c t h9e _ d1 _ d2, pay14_fill m c t h9e _ d2]
        iapply (runC (F := F) c (grid0.coords t) (ms0 t) (hs0 t) (ms1 t) (hs1 t) (ms2 t) (hs2 t) (ms3 t) (hs3 t)
          sc0 (Memref.isWhole_whole _) sc1 (Memref.isWhole_whole _) sc2 (Memref.isWhole_whole _) hc1 hc2 hc3 hc4
          (buf1 m c t d1) (buf2 m c t d2) _ _ _ Set.univ _)
        isplitl [H1]; · iexact H1
        isplitl [H2]; · iexact H2
        isplitl [HS0]; · iexact HS0
        isplitl [HS1]; · iexact HS1
        isplitl [HS2]; · iexact HS2
        iintro ⟨H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexists _; iexact H1
        isplitl [H2]; · iexists _; iexact H2
        iexact H3
      · -- a block of samples: its scores are stored
        have hge : 10 ≤ t.val := by omega
        have hc1 : ¬cond1 (grid0.coords t) := fun h => h0 ((hcond1 t).mp h)
        have hc2 : ¬cond2 (grid0.coords t) := fun h => by have := (hcond2 t).mp h; omega
        have hc3 : ¬cond3 (grid0.coords t) := fun h => h9e ((hcond3 t).mp h)
        have hc4 : cond4 (grid0.coords t) := (hcond4 t).mpr hge
        rw [leaves3_live m c t hc4, PhiS_pos m c _ _ h0, scr_from_nine m c (t.val - 1) _ (by omega),
          scr_from_nine m c t.val t.isLt (by omega)]
        unfold outAt
        iintro ⟨⟨⟨HS0, HS1, HS2⟩, Hg⟩, Ho, ⟨%d0, H0⟩, ⟨%d1, H1⟩, ⟨%d2, H2⟩, ⟨%d3, H3⟩⟩
        iapply (runD (F := F) c (grid0.coords t) (ms0 t) (hs0 t) (ms1 t) (hs1 t) (ms2 t) (hs2 t) (ms3 t) (hs3 t)
          sc0 (Memref.isWhole_whole _) sc1 (Memref.isWhole_whole _) sc2 (Memref.isWhole_whole _) hc1 hc2 hc3 hc4
          (iblk m c 0 t) _ _ _ Set.univ _)
        isplitl [H0]; · iexact H0
        isplitl [H3]; · iexists _; iexact H3
        isplitl [HS0]; · iexact HS0
        isplitl [HS1]; · iexact HS1
        isplitl [HS2]; · iexact HS2
        iintro ⟨H0, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexists _; iexact H1
        isplitl [H2]; · iexists _; iexact H2
        iexact H3

theorem body_obligation (c : Dev nD) : BodyObligationLoose (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 12 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, faults nowhere, and ends with every array of the pipeline
    at what the proof data computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the run ends, and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealRuns.lean ====
/-
  The kernel body, one control case at a time, on whole staging and scratch buffers at arbitrary contents.

  The grid has twelve points. The body branches on the point alone: point 0 stores the first hyperdimension block's
  three products (Wᵀ W, Cn W, the row sums of Cn²) into the three scratch buffers; points 1 … 8 add their block's
  products to them; point 9 does the same after replacing rows and lanes 784 … 1023 of its two blocks by 0; points
  10 and 11 read the three accumulators and one block of samples and store that block's scores. Each case leaves
  every buffer it does not store into as it found it.
-/
import proofs.«119552_g15693810500123_cont_7to1_75_24_alg».proof.Proof.Gen.KernelIdeal.Frame
import proofs.«119552_g15693810500123_cont_7to1_75_24_alg».proof.Proof.Gen.KernelIdeal.Skeleton
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The four branch conditions, as the body computes them from the grid coordinate -/

abbrev cond1 (i : grid0.Coords) : Prop := (Scalar.cmpi .ne (Scalar.extui (Scalar.cmpi .eq (BitVec.ofNat 32 (i 0).val) 0#32)) 0#32) = 1#1
abbrev cond2 (i : grid0.Coords) : Prop := (Scalar.cmpi .ne (Scalar.extui (Scalar.andi (Scalar.cmpi .sgt (BitVec.ofNat 32 (i 0).val) 0#32) (Scalar.cmpi .slt (BitVec.ofNat 32 (i 0).val) 9#32))) 0#32) = 1#1
abbrev cond3 (i : grid0.Coords) : Prop := (Scalar.cmpi .ne (Scalar.extui (Scalar.cmpi .eq (BitVec.ofNat 32 (i 0).val) 9#32)) 0#32) = 1#1
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ (0 < t.val ∧ t.val < 9) :=
  (by decide +kernel : ∀ t : Fin grid0.N, cond2 (grid0.coords t) ↔ (0 < t.val ∧ t.val < 9))
theorem hcond3 : ∀ t : Fin cfg0.N, cond3 (grid0.coords t) ↔ t.val = 9 :=
  (by decide +kernel : ∀ t : Fin grid0.N, cond3 (grid0.coords t) ↔ t.val = 9)
theorem hcond4 : ∀ t : Fin cfg0.N, cond4 (grid0.coords t) ↔ 10 ≤ t.val :=
  (by decide +kernel : ∀ t : Fin grid0.N, cond4 (grid0.coords t) ↔ 10 ≤ t.val)

/-! ## Whole-buffer loads and stores -/

/-- One store through the whole-shape rectangle leaves its payload, whatever the buffer held. -/
theorem read_store_whole {S : Shape} {e : EltTy} (a : Memref sig .tc .vmem S e) (f : a.view.ty.Contents (Elt F))
    {off : Fin S.rank → Nat} (hz : off = fun _ => 0) (inb : ∀ x, off x + S.size x ≤ S.size x) (w : S.Idx → Elt F e) :
    a.view.read (Elt F) (a.view.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-- A load through the whole-shape rectangle of a whole buffer reads its contents. -/
theorem load_whole {S : Shape} {e : EltTy} (a : Memref sig .tc .vmem S e) (ha : a.IsWhole) (x : S.Idx → Elt F e)
    {off : Fin S.rank → Nat} (hz : off = fun _ => 0) (inb : ∀ y, off y + S.size y ≤ S.size y) :
    View.readAt (Elt F) a.view (Rect.unit off S.size inb).toLoadRect (ha.unread x) = x := by
  rw [View.readAt_eq_ld, ha.read_unread, View.ld_unit_zero hz]

theorem hz2 : (![0, 0] : Fin 2 → Nat) = fun _ => 0 := funext fun a => by fin_cases a <;> rfl

/-! ## The body, one control case at a time

  Point 0 stores the first block's three products into the scratch buffers; points 1 … 8 add theirs; point 9 adds
  the masked last block's; points 10, 11 read the three accumulators and store the scores into the output's buffer. -/

theorem runA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : cond1 i) (hc2 : ¬cond2 i) (hc3 : ¬cond3 i) (hc4 : ¬cond4 i)
    (x1 : Vec F S1024x512 .f32) (x2 : Vec F S100x1024 .f32) (E : Set ℕ) (K : PUnit → sProp 𝕄) :
    iprop(owns (c : Thread nD τ) arg2 fullShare x1 ∗ owns (c : Thread nD τ) arg3 fullShare x2
        ∗ (∃ q, owns (c : Thread nD τ) arg5 fullShare q) ∗ (∃ p, owns (c : Thread nD τ) arg6 fullShare p) ∗ (∃ w, owns (c : Thread nD τ) arg7 fullShare w)
        ∗ (iprop(owns (c : Thread nD τ) arg2 fullShare x1 ∗ owns (c : Thread nD τ) arg3 fullShare x2
            ∗ owns (c : Thread nD τ) arg5 fullShare (k0_pay2 x1) ∗ owns (c : Thread nD τ) arg6 fullShare (k0_pay3 x1 x2) ∗ owns (c : Thread nD τ) arg7 fullShare (k0_pay4 x2)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f2, %hf2, H2⟩, ⟨%f3, %hf3, H3⟩, ⟨%q, %f5, %hf5, H5⟩, ⟨%p, %f6, %hf6, H6⟩, ⟨%w, %f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2]
  isplitl [H6]
  · iexists _; isplitr
    swap; · iexact H6
    ipureintro
    rw [read_store_whole arg6 _ hz2]; simp only [load_whole arg2 harg2 _ hz2, load_whole arg3 harg3 _ hz2]
  · iexists _; isplitr
    swap; · iexact H7
    ipureintro
    rw [read_store_whole arg7 _ hz2]; simp only [load_whole arg3 harg3 _ hz2]

theorem runB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : cond2 i) (hc3 : ¬cond3 i) (hc4 : ¬cond4 i)
    (x1 : Vec F S1024x512 .f32) (x2 : Vec F S100x1024 .f32) (q : Vec F S512x512 .f32) (p : Vec F S100x512 .f32) (w : Vec F S100x1 .f32)
    (E : Set ℕ) (K : PUnit → sProp 𝕄) :
    iprop(owns (c : Thread nD τ) arg2 fullShare x1 ∗ owns (c : Thread nD τ) arg3 fullShare x2
        ∗ owns (c : Thread nD τ) arg5 fullShare q ∗ owns (c : Thread nD τ) arg6 fullShare p ∗ owns (c : Thread nD τ) arg7 fullShare w
        ∗ (iprop(owns (c : Thread nD τ) arg2 fullShare x1 ∗ owns (c : Thread nD τ) arg3 fullShare x2
            ∗ owns (c : Thread nD τ) arg5 fullShare (k0_pay6 x1 q) ∗ owns (c : Thread nD τ) arg6 fullShare (k0_pay7 x1 x2 p) ∗ owns (c : Thread nD τ) arg7 fullShare (k0_pay8 x2 w)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2, load_whole arg5 harg5 _ hz2]
  isplitl [H6]
  · iexists _; isplitr
    swap; · iexact H6
    ipureintro
    rw [read_store_whole arg6 _ hz2]; simp only [load_whole arg2 harg2 _ hz2, load_whole arg3 harg3 _ hz2, load_whole arg6 harg6 _ hz2]
  · iexists _; isplitr
    swap; · iexact H7
    ipureintro
    rw [read_store_whole arg7 _ hz2]; simp only [load_whole arg3 harg3 _ hz2, load_whole arg7 harg7 _ hz2]

theorem runC (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : ¬cond2 i) (hc3 : cond3 i) (hc4 : ¬cond4 i)
    (x1 : Vec F S1024x512 .f32) (x2 : Vec F S100x1024 .f32) (q : Vec F S512x512 .f32) (p : Vec F S100x512 .f32) (w : Vec F S100x1 .f32)
    (E : Set ℕ) (K : PUnit → sProp 𝕄) :
    iprop(owns (c : Thread nD τ) arg2 fullShare x1 ∗ owns (c : Thread nD τ) arg3 fullShare x2
        ∗ owns (c : Thread nD τ) arg5 fullShare q ∗ owns (c : Thread nD τ) arg6 fullShare p ∗ owns (c : Thread nD τ) arg7 fullShare w
        ∗ (iprop(owns (c : Thread nD τ) arg2 fullShare x1 ∗ owns (c : Thread nD τ) arg3 fullShare x2
            ∗ owns (c : Thread nD τ) arg5 fullShare (k0_pay12 x1 q) ∗ owns (c : Thread nD τ) arg6 fullShare (k0_pay13 x1 x2 p) ∗ owns (c : Thread nD τ) arg7 fullShare (k0_pay14 x2 w)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  simp only [k0_part1_eq_skeleton]; unfold k0_part1_skel
  unfold owns
  iintro ⟨⟨%f2, %hf2, H2⟩, ⟨%f3, %hf3, H3⟩, ⟨%f5, %hf5, H5⟩, ⟨%f6, %hf6, H6⟩, ⟨%f7, %hf7, H7⟩, Hk⟩
  obtain rfl := harg2.eq_unread hf2; obtain rfl := harg3.eq_unread hf3
  obtain rfl := harg5.eq_unread hf5; obtain rfl := harg6.eq_unread hf6; obtain rfl := harg7.eq_unread hf7
  sl_exec (disch := first | exact hc1 | exact hc2 | exact hc3 | exact hc4)
  sl_step
  iapply Hk
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    rw [read_store_whole arg5 _ hz2]; simp only [load_whole arg2 harg2 _ hz2, load_whole arg5 harg5 _ hz2]
  isplitl [H6]
  · iexists _; isplitr
    swap; · iexact H6
    ipureintro
    rw [read_store_whole arg6 _ hz2]; simp only [load_whole arg2 harg2 _ hz2, load_whole arg3 harg3 _ hz2, load_whole arg6 harg6 _ hz2]
  · iexists _; isplitr
    swap; · iexact H7
    ipureintro
    rw [read_store_whole arg7 _ hz2]; simp only [load_whole arg3 harg3 _ hz2, load_whole arg7 harg7 _ hz2]

theorem runD (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S100x1024 .f32) (harg3 : arg3.IsWhole) (arg4 : Memref sig .tc .vmem S2048x100 .f32) (harg4 : arg4.IsWhole) (arg5 : Memref sig .tc .vmem S512x512 .f32) (harg5 : arg5.IsWhole) (arg6 : Memref sig .tc .vmem S100x512 .f32) (harg6 : arg6.IsWhole) (arg7 : Memref sig .tc .vmem S100x1 .f32) (harg7 : arg7.IsWhole)
    (hc1 : ¬cond1 i) (hc2 : ¬cond2 i) (hc3 : ¬cond3 i) (hc4 : cond4 i)
    (x0 : Vec F S2048x512 .f32) (q : Vec F S512x512 .f32) (p : Vec F S100x512 .f32) (w : Vec F S100x1 .f32)
    (E : Set ℕ) (K : PUnit → sProp 𝕄) :
    iprop(owns (c : Thread nD τ) arg1 fullShare x0 ∗ (∃ o, owns (c : Thread nD τ) arg4 fullShare o)
        ∗ owns (c : Thread nD τ) arg5 fullShare q ∗ owns (c : Thread nD τ) arg6 fullShare p ∗ owns (c : Thread nD τ) arg7 fullShare w
        ∗ (iprop(owns (c : Thread nD τ) arg1 fullShare x0 ∗ owns (c : Thread nD τ) arg4 fullShare (k0_pay9 x0 q p w)
            ∗ owns (c : Thread nD τ) arg5 fullShare q ∗ owns (c : Thread nD τ) arg6 fullShare p ∗ owns (c : Thread nD τ) arg7 fullShare w) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f1, %hf1, H1⟩, ⟨%o, %f4, %hf4, H4⟩, ⟨%f5, %hf5, H5⟩, ⟨%f6, %hf6, H6⟩, ⟨%f7, %hf7, H7⟩, Hk⟩
  obtain rfl := harg1.eq_unread hf1; obtain rfl := harg4.eq_unread hf4
  obtain rfl := harg5.eq_unread hf5; obtain rfl := harg6.eq_unread hf6; obtain rfl := harg7.eq_unread hf7
  sl_exec (disch := first | exact hc1 | exact hc2 | exact hc3 | exact hc4)
  sl_step
  iapply Hk
  isplitl [H1]
  · iexists _; isplitr; · ipureintro; exact hf1
    iexact H1
  isplitl [H4]
  · iexists _; isplitr
    swap; · iexact H4
    ipureintro
    rw [read_store_whole arg4 _ hz2]; simp only [load_whole arg1 harg1 _ hz2, load_whole arg5 harg5 _ hz2, load_whole arg6 harg6 _ hz2, load_whole arg7 harg7 _ hz2]
  isplitl [H5]
  · iexists _; isplitr; · ipureintro; exact hf5
    iexact H5
  isplitl [H6]
  · iexists _; isplitr; · ipureintro; exact hf6
    iexact H6
  · iexists _; isplitr; · ipureintro; exact hf7
    iexact H7

end Cert.KernelIdeal.Hand

end
-- ==== Proof.IdealData.lean ====
/-
  The proof data of the one pipeline: what every staging buffer and the three scratch accumulators hold, point by point.

  Windows 1 (projection rows, blocks of 1024 rows) and 2 (centroids, blocks of 1024 columns) overhang their arrays
  at their last block: of 10000 = 9 · 1024 + 784 entries the last block holds 784, and the rest of the buffer holds
  words nothing names. So a buffer of either window is stated as its block inside the array, filled out with some
  contents `d`; where a closed form is needed the filler is the zero word. The accumulators after point n are the
  recursion `scr`: the first block's products at point 0, the running sums up to point 9 (whose block is masked to
  its 784 valid entries by the body itself), unchanged afterwards. The output's buffer after points 10 and 11 is the
  score payload of that point's block of samples and the accumulators after point 9.
-/
import proofs.«119552_g15693810500123_cont_7to1_75_24_alg».proof.Proof.Gen.KernelIdeal.Frame
import proofs.«119552_g15693810500123_cont_7to1_75_24_alg».proof.Proof.Gen.KernelIdeal.Skeleton
import Idealize.ShloMosaic.Lib.Pipeline.Frame
import Idealize.ShloMosaic.Lib.Pipeline.FrameBody
import Idealize.ShloMosaic.Lib.Tactic
import Idealize.ShloMosaic.Lib.Pipeline.Value
import proofs.«119552_g15693810500123_cont_7to1_75_24_alg».proof.Proof.IdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S100x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x100 .f32 := win0_3.stage (cfg0.slots t 3)
abbrev hs3 (t : Fin cfg0.N) : (ms3 t).IsWhole := hstage0_3 ((cfg0.slots t 3).cast nbuf0_3)
/-- The three scratch accumulators: Wᵀ W, Cn W, and the centroids' squared norms. -/
abbrev sc0 : Memref sig .tc .vmem S512x512 .f32 := Memref.whole cc0_scratch0
abbrev sc1 : Memref sig .tc .vmem S100x512 .f32 := Memref.whole cc0_scratch1
abbrev sc2 : Memref sig .tc .vmem S100x1 .f32 := Memref.whole cc0_scratch2

/-! ## What the clipped windows' buffers hold -/

/-- Window 1's buffer at point `t`: its block inside the array, filled out with `d`. -/
def buf1 (c : Dev nD) (t : Fin cfg0.N) (d : S1024x512.Idx → Elt F .f32) : Vec F S1024x512 .f32 :=
  win0_1.fill (grid0.coords t) d (iblk m c 1 t)
/-- Window 2's likewise. -/
def buf2 (c : Dev nD) (t : Fin cfg0.N) (d : S100x1024.Idx → Elt F .f32) : Vec F S100x1024 .f32 :=
  win0_2.fill (grid0.coords t) d (iblk m c 2 t)
/-- With the zero word as the filler. -/
def X1 (c : Dev nD) (t : Fin cfg0.N) : Vec F S1024x512 .f32 := buf1 m c t (fun _ => Scalar.ofBits .f32 0#32)
def X2 (c : Dev nD) (t : Fin cfg0.N) : Vec F S100x1024 .f32 := buf2 m c t (fun _ => Scalar.ofBits .f32 0#32)

/-! ## The accumulators after each point -/

/-- What the three scratch buffers hold after the body at point `n`. -/
def scr (c : Dev nD) : (n : ℕ) → n < cfg0.N → Vec F S512x512 .f32 × Vec F S100x512 .f32 × Vec F S100x1 .f32
  | 0, hn => (k0_pay2 (X1 m c ⟨0, hn⟩), k0_pay3 (X1 m c ⟨0, hn⟩) (X2 m c ⟨0, hn⟩), k0_pay4 (X2 m c ⟨0, hn⟩))
  | n + 1, hn =>
    if n + 1 < 9 then
      (k0_pay6 (X1 m c ⟨n + 1, hn⟩) (scr c n (Nat.lt_of_succ_lt hn)).1,
        k0_pay7 (X1 m c ⟨n + 1, hn⟩) (X2 m c ⟨n + 1, hn⟩) (scr c n (Nat.lt_of_succ_lt hn)).2.1,
        k0_pay8 (X2 m c ⟨n + 1, hn⟩) (scr c n (Nat.lt_of_succ_lt hn)).2.2)
    else if n + 1 = 9 then
      (k0_pay12 (X1 m c ⟨n + 1, hn⟩) (scr c n (Nat.lt_of_succ_lt hn)).1,
        k0_pay13 (X1 m c ⟨n + 1, hn⟩) (X2 m c ⟨n + 1, hn⟩) (scr c n (Nat.lt_of_succ_lt hn)).2.1,
        k0_pay14 (X2 m c ⟨n + 1, hn⟩) (scr c n (Nat.lt_of_succ_lt hn)).2.2)
    else scr c n (Nat.lt_of_succ_lt hn)

theorem scr_first (c : Dev nD) (t : Fin cfg0.N) (h : t.val = 0) :
    scr m c t.val t.isLt = (k0_pay2 (X1 m c t), k0_pay3 (X1 m c t) (X2 m c t), k0_pay4 (X2 m c t)) := by
  obtain ⟨n, hn⟩ := t
  cases n with
  | zero => rfl
  | succ n => exact absurd h (Nat.succ_ne_zero n)

theorem scr_interior (c : Dev nD) (t : Fin cfg0.N) (h0 : t.val ≠ 0) (h9 : t.val < 9) :
    scr m c t.val t.isLt
      = (k0_pay6 (X1 m c t) (scr m c (t.val - 1) (Nat.lt_of_le_of_lt (Nat.sub_le _ _) t.isLt)).1,
          k0_pay7 (X1 m c t) (X2 m c t) (scr m c (t.val - 1) (Nat.lt_of_le_of_lt (Nat.sub_le _ _) t.isLt)).2.1,
          k0_pay8 (X2 m c t) (scr m c (t.val - 1) (Nat.lt_of_le_of_lt (Nat.sub_le _ _) t.isLt)).2.2) := by
  obtain ⟨n, hn⟩ := t
  cases n with
  | zero => exact absurd rfl h0
  | succ n => exact (if_pos h9).trans rfl

theorem scr_edge (c : Dev nD) (t : Fin cfg0.N) (h9 : t.val = 9) :
    scr m c t.val t.isLt
      = (k0_pay12 (X1 m c t) (scr m c (t.val - 1) (Nat.lt_of_le_of_lt (Nat.sub_le _ _) t.isLt)).1,
          k0_pay13 (X1 m c t) (X2 m c t) (scr m c (t.val - 1) (Nat.lt_of_le_of_lt (Nat.sub_le _ _) t.isLt)).2.1,
          k0_pay14 (X2 m c t) (scr m c (t.val - 1) (Nat.lt_of_le_of_lt (Nat.sub_le _ _) t.isLt)).2.2) := by
  obtain ⟨n, hn⟩ := t
  cases n with
  | zero => exact absurd h9 (by show ¬((0 : ℕ) = 9); omega)
  | succ n =>
    have h9' : n + 1 = 9 := h9
    exact (if_neg (by omega)).trans ((if_pos h9').trans rfl)

theorem scr_later (c : Dev nD) (t : Fin cfg0.N) (h : 9 < t.val) :
    scr m c t.val t.isLt = scr m c (t.val - 1) (Nat.lt_of_le_of_lt (Nat.sub_le _ _) t.isLt) := by
  obtain ⟨n, hn⟩ := t
  cases n with
  | zero => exact absurd h (by show ¬(9 < (0 : ℕ)); omega)
  | succ n =>
    have h' : 9 < n + 1 := h
    exact (if_neg (by omega)).trans ((if_neg (by omega)).trans rfl)

theorem nine_lt : 9 < cfg0.N := by decide

/-- From point 9 on the accumulators are those after point 9. -/
theorem scr_from_nine (c : Dev nD) : ∀ (n : ℕ) (hn : n < cfg0.N), 9 ≤ n → scr m c n hn = scr m c 9 nine_lt
  | 0, _, h => absurd h (by decide)
  | n + 1, hn, h => by
    by_cases h9 : n + 1 = 9
    · subst_vars; simp only [h9]
    · have := scr_later m c ⟨n + 1, hn⟩ (by show 9 < n + 1; omega)
      rw [show scr m c (n + 1) hn = _ from this]
      exact scr_from_nine c n _ (by omega)

/-- The output's buffer after the body at a point that stores the scores. -/
def outAt (c : Dev nD) (t : Fin cfg0.N) : Vec F S2048x100 .f32 :=
  k0_pay9 (iblk m c 0 t) (scr m c 9 nine_lt).1 (scr m c 9 nine_lt).2.1 (scr m c 9 nine_lt).2.2

/-! ## The invariant -/

/-- Before point `n`: at the first point the scratch buffers hold anything; afterwards what the point before left. -/
def PhiS (c : Dev nD) : (n : ℕ) → n ≤ cfg0.N → sProp 𝕄
  | 0, _ => Pipeline.ΦA spec0 c
  | n + 1, hn => iprop(iprop(owns (c : Thread nD τ) sc0 fullShare (scr m c n hn).1 ∗ owns (c : Thread nD τ) sc1 fullShare (scr m c n hn).2.1
      ∗ owns (c : Thread nD τ) sc2 fullShare (scr m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (scr m c n hn).1 ∗ owns (c : Thread nD τ) sc1 fullShare (scr m c n hn).2.1
      ∗ owns (c : Thread nD τ) sc2 fullShare (scr m c n hn).2.2) ∗ (∃ r, prngReg c r)) := rfl

theorem PhiS_pos (c : Dev nD) (n : ℕ) (h : n ≤ cfg0.N) (hz : n ≠ 0) :
    PhiS m c n h = iprop(iprop(owns (c : Thread nD τ) sc0 fullShare (scr m c (n - 1) (by omega)).1 ∗ owns (c : Thread nD τ) sc1 fullShare (scr m c (n - 1) (by omega)).2.1
      ∗ owns (c : Thread nD τ) sc2 fullShare (scr m c (n - 1) (by omega)).2.2) ∗ (∃ r, prngReg c r)) := by
  cases n with
  | zero => exact absurd rfl hz
  | succ n => rfl

/-- The class invariant with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X1 m c t
    | ⟨2, _⟩ => X2 m c t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = X1 m c t := by dsimp only [dats]
theorem after2 (c : Dev nD) (t : Fin cfg0.N) : (dats m 0 c).after 2 t = X2 m c t := by dsimp only [dats]
theorem after3 (c : Dev nD) (t : Fin cfg0.N) : (dats m 0 c).after 3 t = outAt m c t := by dsimp only [dats]

/-! ## What the body finds in the input windows' buffers -/

theorem before0 (c : Dev nD) (t : Fin cfg0.N) (d) : (dats m 0 c).before 0 t d = iblk m c 0 t :=
  before0_0_of m (dats m 0 c) (A_eq m c 0) (after0 m c) t d

/-- A clipped window's cuts are a function of its block index. -/
theorem hclip1 : ∀ t t' : Fin cfg0.N, (cfg0.win 1).index t = (cfg0.win 1).index t' →
    (cfg0.win 1).clip (cfg0.grid.coords t) = (cfg0.win 1).clip (cfg0.grid.coords t') := by decide +kernel
theorem hclip2 : ∀ t t' : Fin cfg0.N, (cfg0.win 2).index t = (cfg0.win 2).index t' →
    (cfg0.win 2).clip (cfg0.grid.coords t) = (cfg0.win 2).clip (cfg0.grid.coords t') := by decide +kernel

theorem before1 (c : Dev nD) (t : Fin cfg0.N) (d) : (dats m 0 c).before 1 t d = buf1 m c t d := by
  rw [(dats m 0 c).before_in_eq_fetched 1 rfl (fun _ => rfl) hclip1 (fun t => by
    rw [after1]; unfold X1 buf1; rw [Window.cut_fill]; unfold Dat.blockOf iblk; rw [A_eq]) t d]
  unfold Dat.fetched Dat.blockOf buf1 iblk; rw [A_eq]

theorem before2 (c : Dev nD) (t : Fin cfg0.N) (d) : (dats m 0 c).before 2 t d = buf2 m c t d := by
  rw [(dats m 0 c).before_in_eq_fetched 2 rfl (fun _ => rfl) hclip2 (fun t => by
    rw [after2]; unfold X2 buf2; rw [Window.cut_fill]; unfold Dat.blockOf iblk; rw [A_eq]) t d]
  unfold Dat.fetched Dat.blockOf buf2 iblk; rw [A_eq]

end Cert.KernelIdeal.Hand

end
-- ==== Proof.IdealBody.lean ====
/-
  The body obligation of the pipeline, the launch, and the frame.

  At every point the pipeline hands the body the four windows' current buffers and the invariant: window 0's
  buffer at its block of samples; windows 1 and 2's at their blocks inside the array, filled out with contents nothing
  names; the output's buffer at anything; the scratch accumulators at what the point before left. The closed forms
  of the four branch conditions say which case the point is in, and that case's run gives back what the proof data
  names. Two facts make the named contents independent of the unnamed filler: at points 0 … 8 nothing of a block is
  cut, so there is no filler; at point 9 the body replaces rows and lanes 784 … 1023 by zero before it uses them.
-/
import proofs.«119552_g15693810500123_cont_7to1_75_24_alg».proof.Proof.Gen.KernelIdeal.Frame
import proofs.«119552_g15693810500123_cont_7to1_75_24_alg».proof.Proof.Gen.KernelIdeal.Skeleton
import Idealize.ShloMosaic.Lib.Pipeline.Frame
import Idealize.ShloMosaic.Lib.Pipeline.FrameBody
import Idealize.ShloMosaic.Lib.Tactic
import Idealize.ShloMosaic.Lib.Pipeline.Value
import Idealize.ShloMosaic.Lib.ValueIdx
import proofs.«119552_g15693810500123_cont_7to1_75_24_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The filler does not matter -/

theorem xs1_full : ∀ t : Fin cfg0.N, t.val < 9 → win0_1.xsize (grid0.coords t) = win0_1.size :=
  (by decide +kernel : ∀ t : Fin grid0.N, t.val < 9 → win0_1.xsize (grid0.coords t) = win0_1.size)
theorem xs2_full : ∀ t : Fin cfg0.N, t.val < 9 → win0_2.xsize (grid0.coords t) = win0_2.size :=
  (by decide +kernel : ∀ t : Fin grid0.N, t.val < 9 → win0_2.xsize (grid0.coords t) = win0_2.size)
theorem xs1_edge : ∀ t : Fin cfg0.N, t.val = 9 → win0_1.xsize (grid0.coords t) = ![784, 512] :=
  (by decide +kernel : ∀ t : Fin grid0.N, t.val = 9 → win0_1.xsize (grid0.coords t) = ![784, 512])
theorem xs2_edge : ∀ t : Fin cfg0.N, t.val = 9 → win0_2.xsize (grid0.coords t) = ![100, 784] :=
  (by decide +kernel : ∀ t : Fin grid0.N, t.val = 9 → win0_2.xsize (grid0.coords t) = ![100, 784])

/-- Before the last block nothing is cut: the buffer is the block, whatever the filler. -/
theorem buf1_full (c : Dev nD) (t : Fin cfg0.N) (h : t.val < 9) (d d' : S1024x512.Idx → Elt F .f32) :
    buf1 m c t d = buf1 m c t d' := by
  funext j
  have hm : win0_1.moved (grid0.coords t) j = true :=
    (win0_1.moved_iff _ j).mpr fun a => by rw [xs1_full t h]; exact (j a).isLt
  unfold buf1 Window.fill; rw [dif_pos hm, dif_pos hm]
theorem buf2_full (c : Dev nD) (t : Fin cfg0.N) (h : t.val < 9) (d d' : S100x1024.Idx → Elt F .f32) :
    buf2 m c t d = buf2 m c t d' := by
  funext j
  have hm : win0_2.moved (grid0.coords t) j = true :=
    (win0_2.moved_iff _ j).mpr fun a => by rw [xs2_full t h]; exact (j a).isLt
  unfold buf2 Window.fill; rw [dif_pos hm, dif_pos hm]

/-- At the last block the rows below 784 are the block's, whatever the filler. -/
theorem buf1_edge (c : Dev nD) (t : Fin cfg0.N) (h : t.val = 9) (d d' : S1024x512.Idx → Elt F .f32)
    (j : S1024x512.Idx) (hj : (j 0).val < 784) : buf1 m c t d j = buf1 m c t d' j := by
  have hm : win0_1.moved (grid0.coords t) j = true :=
    (win0_1.moved_iff _ j).mpr fun a => by
      rw [xs1_edge t h]
      match a with
      | ⟨0, _⟩ => exact hj
      | ⟨1, _⟩ => exact ValueIdx.idx2_lt1 j
  unfold buf1 Window.fill; rw [dif_pos hm, dif_pos hm]
/-- And of window 2 the lanes below 784. -/
theorem buf2_edge (c : Dev nD) (t : Fin cfg0.N) (h : t.val = 9) (d d' : S100x1024.Idx → Elt F .f32)
    (j : S100x1024.Idx) (hj : (j 1).val < 784) : buf2 m c t d j = buf2 m c t d' j := by
  have hm : win0_2.moved (grid0.coords t) j = true :=
    (win0_2.moved_iff _ j).mpr fun a => by
      rw [xs2_edge t h]
      match a with
      | ⟨0, _⟩ => exact ValueIdx.idx2_lt0 j
      | ⟨1, _⟩ => exact hj
  unfold buf2 Window.fill; rw [dif_pos hm, dif_pos hm]

/-- A coordinate below 1024 that compares below 784 as a signed 32-bit word is below 784. -/
theorem slt784 : ∀ n : Fin 1024, IntOp.cmpi .slt (BitVec.ofNat 32 n.val) 784#32 = 1 → n.val < 784 := by decide +kernel

/-- The masked block of projection rows reads its argument only at rows below 784. -/
theorem pay11_congr (x x' : Vec F S1024x512 .f32) (h : ∀ j : S1024x512.Idx, (j 0).val < 784 → x j = x' j) :
    k0_pay11 x = k0_pay11 x' := by
  funext j
  simp only [k0_pay11, truncf, select, Scalar.select]
  by_cases hc : cmpi .slt (iota .tc S1024x512 32 [0] iota_S1024x512_d0_w32) (broadcast S1024x512 784#32) j = 1
  · rw [if_pos hc, if_pos hc, h j (by
      simp only [cmpi, iota, broadcast, List.foldl, Nat.zero_mul, Nat.zero_add] at hc
      exact slt784 ⟨(j 0).val, ValueIdx.idx2_lt0 j⟩ hc)]
  · rw [if_neg hc, if_neg hc]

/-- The masked block of centroids reads its argument only at lanes below 784. -/
theorem pay10_congr (x x' : Vec F S100x1024 .f32) (h : ∀ j : S100x1024.Idx, (j 1).val < 784 → x j = x' j) :
    k0_pay10 x = k0_pay10 x' := by
  funext j
  simp only [k0_pay10, select, Scalar.select]
  by_cases hc : cmpi .slt (iota .tc S100x1024 32 [1] iota_S100x1024_d1_w32) (broadcast S100x1024 784#32) j = 1
  · rw [if_pos hc, if_pos hc, h j (by
      simp only [cmpi, iota, broadcast, List.foldl, Nat.zero_mul, Nat.zero_add] at hc
      exact slt784 ⟨(j 1).val, ValueIdx.idx2_lt1 j⟩ hc)]
  · rw [if_neg hc, if_neg hc]

theorem pay12_fill (c : Dev nD) (t : Fin cfg0.N) (h : t.val = 9) (d d' : S1024x512.Idx → Elt F .f32) (q : Vec F S512x512 .f32) :
    k0_pay12 (buf1 m c t d) q = k0_pay12 (buf1 m c t d') q := by
  unfold k0_pay12; rw [pay11_congr _ _ (buf1_edge m c t h d d')]
theorem pay13_fill (c : Dev nD) (t : Fin cfg0.N) (h : t.val = 9) (d d' : S1024x512.Idx → Elt F .f32) (e e' : S100x1024.Idx → Elt F .f32)
    (p : Vec F S100x512 .f32) :
    k0_pay13 (buf1 m c t d) (buf2 m c t e) p = k0_pay13 (buf1 m c t d') (buf2 m c t e') p := by
  unfold k0_pay13; rw [pay11_congr _ _ (buf1_edge m c t h d d'), pay10_congr _ _ (buf2_edge m c t h e e')]
theorem pay14_fill (c : Dev nD) (t : Fin cfg0.N) (h : t.val = 9) (e e' : S100x1024.Idx → Elt F .f32) (w : Vec F S100x1 .f32) :
    k0_pay14 (buf2 m c t e) w = k0_pay14 (buf2 m c t e') w := by
  unfold k0_pay14; rw [pay10_congr _ _ (buf2_edge m c t h e e')]

/-! ## Where the output window is idle -/

theorem idle3_of : ∀ t : Fin cfg0.N, ¬cond4 (grid0.coords t) → cfg0.idle 3 (grid0.coords t) = true :=
  (by decide +kernel : ∀ t : Fin grid0.N, ¬cond4 (grid0.coords t) → cfg0.idle 3 (grid0.coords t) = true)
theorem noflush3_of : ∀ t : Fin cfg0.N, ¬cond4 (grid0.coords t) → (cfg0.win 3).flush t = false :=
  (by decide +kernel : ∀ t : Fin grid0.N, ¬cond4 (grid0.coords t) → (cfg0.win 3).flush t = false)
theorem live3_of : ∀ t : Fin cfg0.N, cond4 (grid0.coords t) → cfg0.idle 3 (grid0.coords t) = false :=
  (by decide +kernel : ∀ t : Fin grid0.N, cond4 (grid0.coords t) → cfg0.idle 3 (grid0.coords t) = false)

/-! ## What the obligation asks of each window's buffer after the body -/

theorem leaves0 (c : Dev nD) (t : Fin cfg0.N) :
    (dats m 0 c).leaves 0 t = owns (c : Thread nD τ) (ms0 t) fullShare (iblk m c 0 t) := by
  have hi : cfg0.idle 0 (cfg0.grid.coords t) = false := rfl
  unfold Dat.leaves; rw [hi, after0]
theorem leaves1 (c : Dev nD) (t : Fin cfg0.N) :
    (dats m 0 c).leaves 1 t = iprop(∃ d, owns (c : Thread nD τ) (ms1 t) fullShare (buf1 m c t d)) := by
  have hi : cfg0.idle 1 (cfg0.grid.coords t) = false := rfl
  have hf : ∀ d, (cfg0.win 1).fill (cfg0.grid.coords t) d ((cfg0.win 1).cut (cfg0.grid.coords t) (X1 m c t)) = buf1 m c t d :=
    fun d => by unfold X1 buf1; rw [Window.cut_fill]
  unfold Dat.leaves; rw [hi, after1]; simp only [hf]; rfl
theorem leaves2 (c : Dev nD) (t : Fin cfg0.N) :
    (dats m 0 c).leaves 2 t = iprop(∃ d, owns (c : Thread nD τ) (ms2 t) fullShare (buf2 m c t d)) := by
  have hi : cfg0.idle 2 (cfg0.grid.coords t) = false := rfl
  have hf : ∀ d, (cfg0.win 2).fill (cfg0.grid.coords t) d ((cfg0.win 2).cut (cfg0.grid.coords t) (X2 m c t)) = buf2 m c t d :=
    fun d => by unfold X2 buf2; rw [Window.cut_fill]
  unfold Dat.leaves; rw [hi, after2]; simp only [hf]; rfl
theorem leaves3_idle (c : Dev nD) (t : Fin cfg0.N) (h : ¬cond4 (grid0.coords t)) :
    (dats m 0 c).leaves 3 t = iprop(∃ d, owns (c : Thread nD τ) (ms3 t) fullShare ((dats m 0 c).before 3 t d)) :=
  (dats m 0 c).leaves_idle 3 t (idle3_of t h) (noflush3_of t h)
theorem leaves3_live (c : Dev nD) (t : Fin cfg0.N) (h : cond4 (grid0.coords t)) :
    (dats m 0 c).leaves 3 t = owns (c : Thread nD τ) (ms3 t) fullShare (outAt m c t) := by
  unfold Dat.leaves; rw [live3_of t h, after3]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc]
  have hN : t.val < 12 := lt_of_lt_of_eq t.isLt (show cfg0.N = 12 from N_0)
  by_cases h0 : t.val = 0
  · -- the first block: the accumulators are stored
    have hc1 : cond1 (grid0.coords t) := (hcond1 t).mpr h0
    have hc2 : ¬cond2 (grid0.coords t) := fun h => by have := (hcond2 t).mp h; omega
    have hc3 : ¬cond3 (grid0.coords t) := fun h => by have := (hcond3 t).mp h; omega
    have hc4 : ¬cond4 (grid0.coords t) := fun h => by have := (hcond4 t).mp h; omega
    rw [leaves3_idle m c t hc4, scr_first m c t h0, PhiS_zero m c _ _ h0, PhiA_eq]
    iintro ⟨⟨⟨⟨%q, HS0⟩, ⟨%p, HS1⟩, ⟨%w, HS2⟩⟩, Hg⟩, Ho, ⟨%d0, H0⟩, ⟨%d1, H1⟩, ⟨%d2, H2⟩, H3⟩
    rw [show X1 m c t = buf1 m c t d1 from buf1_full m c t (by omega) _ _,
      show X2 m c t = buf2 m c t d2 from buf2_full m c t (by omega) _ _]
    iapply (runA (F := F) c (grid0.coords t) (ms0 t) (hs0 t) (ms1 t) (hs1 t) (ms2 t) (hs2 t) (ms3 t) (hs3 t)
      sc0 (Memref.isWhole_whole _) sc1 (Memref.isWhole_whole _) sc2 (Memref.isWhole_whole _) hc1 hc2 hc3 hc4
      (buf1 m c t d1) (buf2 m c t d2) Set.univ _)
    isplitl [H1]; · iexact H1
    isplitl [H2]; · iexact H2
    isplitl [HS0]; · iexists _; iexact HS0
    isplitl [HS1]; · iexists _; iexact HS1
    isplitl [HS2]; · iexists _; iexact HS2
    iintro ⟨H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexists _; iexact H1
    isplitl [H2]; · iexists _; iexact H2
    iexact H3
  · by_cases h9 : t.val < 9
    · -- an interior block: its products are added
      have hc1 : ¬cond1 (grid0.coords t) := fun h => h0 ((hcond1 t).mp h)
      have hc2 : cond2 (grid0.coords t) := (hcond2 t).mpr ⟨Nat.pos_of_ne_zero h0, h9⟩
      have hc3 : ¬cond3 (grid0.coords t) := fun h => by have := (hcond3 t).mp h; omega
      have hc4 : ¬cond4 (grid0.coords t) := fun h => by have := (hcond4 t).mp h; omega
      rw [leaves3_idle m c t hc4, scr_interior m c t h0 h9, PhiS_pos m c _ _ h0]
      iintro ⟨⟨⟨HS0, HS1, HS2⟩, Hg⟩, Ho, ⟨%d0, H0⟩, ⟨%d1, H1⟩, ⟨%d2, H2⟩, H3⟩
      rw [show X1 m c t = buf1 m c t d1 from buf1_full m c t h9 _ _,
        show X2 m c t = buf2 m c t d2 from buf2_full m c t h9 _ _]
      iapply (runB (F := F) c (grid0.coords t) (ms0 t) (hs0 t) (ms1 t) (hs1 t) (ms2 t) (hs2 t) (ms3 t) (hs3 t)
        sc0 (Memref.isWhole_whole _) sc1 (Memref.isWhole_whole _) sc2 (Memref.isWhole_whole _) hc1 hc2 hc3 hc4
        (buf1 m c t d1) (buf2 m c t d2) _ _ _ Set.univ _)
      isplitl [H1]; · iexact H1
      isplitl [H2]; · iexact H2
      isplitl [HS0]; · iexact HS0
      isplitl [HS1]; · iexact HS1
      isplitl [HS2]; · iexact HS2
      iintro ⟨H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexists _; iexact H1
      isplitl [H2]; · iexists _; iexact H2
      iexact H3
    · by_cases h9e : t.val = 9
      · -- the last block: masked to its valid entries, then added
        have hc1 : ¬cond1 (grid0.coords t) := fun h => h0 ((hcond1 t).mp h)
        have hc2 : ¬cond2 (grid0.coords t) := fun h => by have := (hcond2 t).mp h; omega
        have hc3 : cond3 (grid0.coords t) := (hcond3 t).mpr h9e
        have hc4 : ¬cond4 (grid0.coords t) := fun h => by have := (hcond4 t).mp h; omega
        rw [leaves3_idle m c t hc4, scr_edge m c t h9e, PhiS_pos m c _ _ h0]
        iintro ⟨⟨⟨HS0, HS1, HS2⟩, Hg⟩, Ho, ⟨%d0, H0⟩, ⟨%d1, H1⟩, ⟨%d2, H2⟩, H3⟩
        rw [show X1 m c t = buf1 m c t (fun _ => Scalar.ofBits .f32 0#32) from rfl,
          show X2 m c t = buf2 m c t (fun _ => Scalar.ofBits .f32 0#32) from rfl,
          pay12_fill m c t h9e _ d1, pay13_fill m c t h9e _ d1 _ d2, pay14_fill m c t h9e _ d2]
        iapply (runC (F := F) c (grid0.coords t) (ms0 t) (hs0 t) (ms1 t) (hs1 t) (ms2 t) (hs2 t) (ms3 t) (hs3 t)
          sc0 (Memref.isWhole_whole _) sc1 (Memref.isWhole_whole _) sc2 (Memref.isWhole_whole _) hc1 hc2 hc3 hc4
          (buf1 m c t d1) (buf2 m c t d2) _ _ _ Set.univ _)
        isplitl [H1]; · iexact H1
        isplitl [H2]; · iexact H2
        isplitl [HS0]; · iexact HS0
        isplitl [HS1]; · iexact HS1
        isplitl [HS2]; · iexact HS2
        iintro ⟨H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexists _; iexact H1
        isplitl [H2]; · iexists _; iexact H2
        iexact H3
      · -- a block of samples: its scores are stored
        have hge : 10 ≤ t.val := by omega
        have hc1 : ¬cond1 (grid0.coords t) := fun h => h0 ((hcond1 t).mp h)
        have hc2 : ¬cond2 (grid0.coords t) := fun h => by have := (hcond2 t).mp h; omega
        have hc3 : ¬cond3 (grid0.coords t) := fun h => h9e ((hcond3 t).mp h)
        have hc4 : cond4 (grid0.coords t) := (hcond4 t).mpr hge
        rw [leaves3_live m c t hc4, PhiS_pos m c _ _ h0, scr_from_nine m c (t.val - 1) _ (by omega),
          scr_from_nine m c t.val t.isLt (by omega)]
        unfold outAt
        iintro ⟨⟨⟨HS0, HS1, HS2⟩, Hg⟩, Ho, ⟨%d0, H0⟩, ⟨%d1, H1⟩, ⟨%d2, H2⟩, ⟨%d3, H3⟩⟩
        iapply (runD (F := F) c (grid0.coords t) (ms0 t) (hs0 t) (ms1 t) (hs1 t) (ms2 t) (hs2 t) (ms3 t) (hs3 t)
          sc0 (Memref.isWhole_whole _) sc1 (Memref.isWhole_whole _) sc2 (Memref.isWhole_whole _) hc1 hc2 hc3 hc4
          (iblk m c 0 t) _ _ _ Set.univ _)
        isplitl [H0]; · iexact H0
        isplitl [H3]; · iexists _; iexact H3
        isplitl [HS0]; · iexact HS0
        isplitl [HS1]; · iexact HS1
        isplitl [HS2]; · iexact HS2
        iintro ⟨H0, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexists _; iexact H1
        isplitl [H2]; · iexists _; iexact H2
        iexact H3

theorem body_obligation (c : Dev nD) : BodyObligationLoose (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 12 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, faults nowhere, and ends with every array of the pipeline
    at what the proof data computes. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the run ends, and the three argument arrays hold what they held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics of the certificate, with no program in sight.

  Data: samples S : [4096, 512], projection rows W : [10000, 512], class centroids Cn : [100, 10000].
  The encoded sample is enc(b, d) = Σ_f S(b, f) · W(d, f). The score of sample b against class c is the cosine of
  enc(b, ·) and Cn(c, ·) with each norm clipped below by ε:

      score(b, c) = (Σ_d enc(b, d) · Cn(c, d)) / (max(‖enc(b, ·)‖, ε) · max(‖Cn(c, ·)‖, ε)).

  `G` is that function on arrays of extended reals, through their real parts. `Kout` is the same number as one
  program computes it: the hyperdimension d < 10000 is swept in ten blocks of 1024 (the last one holds 784 valid
  entries, the rest read as 0), accumulating Q = Wᵀ W, P = Cn W and the centroids' squared norms; then
  ‖enc(b, ·)‖² = Σ_f' (Σ_f S(b, f) Q(f, f')) S(b, f') and Σ_d enc(b, d) Cn(c, d) = Σ_f S(b, f) P(c, f).
-/
import Idealize.ShloMosaic.PureOps.Ideal
import Idealize.ShloMosaic.Lib.ValueIdx

noncomputable section

namespace Cert.Spec

open Idealize.ShloMosaic Idealize.ShloMosaic.ValueIdx
open scoped BigOperators

/-- The shapes of the three arguments and of the result. -/
abbrev ShS : Shape := ⟨2, ![4096, 512]⟩
abbrev ShW : Shape := ⟨2, ![10000, 512]⟩
abbrev ShC : Shape := ⟨2, ![100, 10000]⟩
abbrev ShO : Shape := ⟨2, ![4096, 100]⟩

/-- The clipping threshold as both programs spell it: the extended real the f32 word 0x2B8CBCCC denotes. -/
abbrev epsE : EReal := Ideal.ofBits .f32 0x2B8CBCCC#32
/-- Its real part (a positive dyadic rational, about 1e-12). -/
def eps : ℝ := epsE.toReal

/-! ## The score over the reals -/

/-- The encoded sample: enc(b, d) = Σ_f s(b, f) · w(d, f). -/
def enc (s : ShS.Idx → ℝ) (w : ShW.Idx → ℝ) (b : Fin 4096) (d : Fin 10000) : ℝ :=
  ∑ f : Fin 512, s (ix2 b f) * w (ix2 d f)

/-- The clipped cosine score of sample b against class c. -/
def score (s : ShS.Idx → ℝ) (w : ShW.Idx → ℝ) (cn : ShC.Idx → ℝ) (b : Fin 4096) (c : Fin 100) : ℝ :=
  (∑ d : Fin 10000, enc s w b d * cn (ix2 c d))
    / (max (Real.sqrt (∑ d : Fin 10000, enc s w b d * enc s w b d)) eps
        * max (Real.sqrt (∑ d : Fin 10000, cn (ix2 c d) * cn (ix2 c d))) eps)

/-- The score array as a function of arrays of extended reals (through their real parts; the arrays are finite
    wherever this is used). -/
def G (S : ShS.Idx → EReal) (W : ShW.Idx → EReal) (Cn : ShC.Idx → EReal) : ShO.Idx → EReal :=
  fun i => ((score (fun j => (S j).toReal) (fun j => (W j).toReal) (fun j => (Cn j).toReal) (i 0) (i 1) : ℝ) : EReal)

/-! ## The same number, accumulated block by block over the hyperdimension -/

/-- Entry (k, f) of block t of W: row 1024 t + k, read as 0 past the last row. -/
def eblk (W : ShW.Idx → EReal) (t : ℕ) (k : Fin 1024) (f : Fin 512) : EReal :=
  if h : 1024 * t + k.val < 10000 then W (ix2 ⟨1024 * t + k.val, h⟩ f) else 0

/-- Entry (c, k) of block t of Cn: column 1024 t + k, read as 0 past the last column. -/
def cblk (Cn : ShC.Idx → EReal) (t : ℕ) (c : Fin 100) (k : Fin 1024) : EReal :=
  if h : 1024 * t + k.val < 10000 then Cn (ix2 c ⟨1024 * t + k.val, h⟩) else 0

/-- Q = Wᵀ W after the blocks 0 … n. -/
def accQ (W : ShW.Idx → EReal) (n : ℕ) (f f' : Fin 512) : EReal :=
  ∑ t ∈ Finset.range (n + 1), ∑ k : Fin 1024, eblk W t k f * eblk W t k f'
/-- P = Cn W after the blocks 0 … n. -/
def accP (W : ShW.Idx → EReal) (Cn : ShC.Idx → EReal) (n : ℕ) (c : Fin 100) (f : Fin 512) : EReal :=
  ∑ t ∈ Finset.range (n + 1), ∑ k : Fin 1024, cblk Cn t c k * eblk W t k f
/-- The centroids' squared norms after the blocks 0 … n. -/
def accN (Cn : ShC.Idx → EReal) (n : ℕ) (c : Fin 100) : EReal :=
  ∑ t ∈ Finset.range (n + 1), ∑ k : Fin 1024, cblk Cn t c k * cblk Cn t c k

/-- The score of sample b against class c from the accumulated Q, P and norms (all ten blocks). -/
def Kout (S : ShS.Idx → EReal) (W : ShW.Idx → EReal) (Cn : ShC.Idx → EReal) (b : Fin 4096) (c : Fin 100) : EReal :=
  Ideal.div (∑ f : Fin 512, S (ix2 b f) * accP W Cn 9 c f)
    (max (Ideal.sqrt (max (∑ f' : Fin 512, (∑ f : Fin 512, S (ix2 b f) * accQ W 9 f f') * S (ix2 b f')) 0)) epsE
      * max (Ideal.sqrt (accN Cn 9 c)) epsE)

/-- An array of extended reals is finite: every entry is a real number. -/
def Finite {s : Shape} (X : s.Idx → EReal) : Prop := ∀ j, ∃ r : ℝ, X j = (r : EReal)

end Cert.Spec

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.Payloads.lean ====
/-
  The kernel's pure values read at one entry, over the extended reals.

  Each stored value of the kernel is one pure term over vector operations: a format change (the identity on the
  extended reals), a product of two matrices into the zero accumulator (at an entry, the sum over the contracted
  axis), a sum along rows, shape changes between a vector of a numbers and an a × 1 or 1 × a matrix (the same
  numbers), a broadcast of a column or a row, and entrywise arithmetic. In the last block of the sweep the rows and
  lanes from 784 on are replaced by 0 before they are used: the mask is "row (lane) number < 784" as a comparison
  of 32-bit words, which for numbers below 1024 is the comparison of the numbers.
-/
import proofs.«119552_g15693810500123_cont_7to1_75_24_alg».proof.Proof.Gen.KernelIdeal.Skeleton
import proofs.«119552_g15693810500123_cont_7to1_75_24_alg».proof.Proof.Spec
import proofs.«119552_g15693810500123_cont_7to1_75_24_alg».proof.Proof.LibMatmul
import proofs.«119552_g15693810500123_cont_7to1_75_24_alg».proof.Proof.LibMatmulNT
import proofs.«119552_g15693810500123_cont_7to1_75_24_alg».proof.Proof.LibKeepdims
import proofs.«119552_g15693810500123_cont_7to1_75_24_alg».proof.Proof.LibRowReduce
import Idealize.ShloMosaic.PureOps.Ideal.Laws
import Idealize.ShloMosaic.Lib.ValueIdx
import Idealize.ShloMosaic.Lib.Pipeline.Value
import Idealize.ShloMosaic.Lib.ValueLayout

noncomputable section

namespace Cert.Payloads

open Cert.KernelIdeal Cert.KernelIdeal.Gen Idealize.ShloMosaic Idealize.ShloMosaic.ValueIdx
open scoped BigOperators

/-! ## A product of two matrices contracted along their first axes -/

/-- Entry (p, q) of the product of the transpose of a K by A matrix with a K by B matrix, into the zero
    accumulator, is the sum over k of l (k, p) r (k, q): the accumulator is zero, and the contraction index of a
    product with one contracted axis is that axis' coordinate. Stated for any dimension record whose operand indices
    are (contraction, row) on the left and (contraction, column) on the right, which the four coordinate hypotheses
    say. -/
theorem matmul_zero_tn_ix2 {A K B : ℕ} {φ₁ φ₂ : FTy}
    (d : DotDims (⟨2, ![K, A]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (q ⟨0, by omega⟩).val)
    (hl1 : ∀ i q, (d.lhsIdx i q (1 : Fin 2)).val = (i (0 : Fin 2)).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![K, A]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 k p) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## The kernel's four products at an entry -/

/-- Wᵀ W on one block: [1024, 512]ᵀ · [1024, 512] at (f, f'). -/
theorem gram_apply {φ₁ φ₂ : FTy} (l : FVec Ideal S1024x512 φ₁) (r : FVec Ideal S1024x512 φ₂) (f f' : Fin 512) :
    FloatOps.matmul dot_S1024x512_S1024x512_S512x512_0_0_1_1_n_n none l r
        (constant (F := Ideal) S512x512 .f32 0x00000000#32) (ix2 f f')
      = ∑ k : Fin 1024, l (ix2 k f) * r (ix2 k f') :=
  matmul_zero_tn_ix2 dot_S1024x512_S1024x512_S512x512_0_0_1_1_n_n rfl rfl
    (fun i q => dot_S1024x512_S1024x512_S512x512_0_0_1_1_n_n.lhsIdx_val_of_single rfl i q)
    (fun i q => by
      unfold DotDims.lhsIdx
      rw [dif_neg (show ¬(1 : Fin S1024x512.rank) ∈ dot_S1024x512_S1024x512_S512x512_0_0_1_1_n_n.lhsBatch by decide),
        dif_pos (show (1 : Fin S1024x512.rank) ∈ dot_S1024x512_S1024x512_S512x512_0_0_1_1_n_n.lhsNonContracting by decide)]
      rfl)
    (fun i q => dot_S1024x512_S1024x512_S512x512_0_0_1_1_n_n.rhsIdx_val_of_single rfl i q)
    (fun i q => by
      unfold DotDims.rhsIdx
      rw [dif_neg (show ¬(1 : Fin S1024x512.rank) ∈ dot_S1024x512_S1024x512_S512x512_0_0_1_1_n_n.rhsBatch by decide),
        dif_pos (show (1 : Fin S1024x512.rank) ∈ dot_S1024x512_S1024x512_S512x512_0_0_1_1_n_n.rhsNonContracting by decide)]
      rfl)
    none l r f f'

/-- Cn W on one block: [100, 1024] · [1024, 512] at (c, f). -/
theorem proj_apply {φ₁ φ₂ : FTy} (l : FVec Ideal S100x1024 φ₁) (r : FVec Ideal S1024x512 φ₂) (c : Fin 100) (f : Fin 512) :
    FloatOps.matmul dot_S100x1024_S1024x512_S100x512_1_0_0_1_n_n none l r
        (constant (F := Ideal) S100x512 .f32 0x00000000#32) (ix2 c f)
      = ∑ k : Fin 1024, l (ix2 c k) * r (ix2 k f) :=
  Cert.LibMatmul.matmul_zero_ix2 dot_S100x1024_S1024x512_S100x512_1_0_0_1_n_n rfl rfl
    (fun i q => by
      unfold DotDims.lhsIdx
      rw [dif_neg (show ¬(0 : Fin S100x1024.rank) ∈ dot_S100x1024_S1024x512_S100x512_1_0_0_1_n_n.lhsBatch by decide),
        dif_pos (show (0 : Fin S100x1024.rank) ∈ dot_S100x1024_S1024x512_S100x512_1_0_0_1_n_n.lhsNonContracting by decide)]
      rfl)
    (fun i q => dot_S100x1024_S1024x512_S100x512_1_0_0_1_n_n.lhsIdx_val_of_single rfl i q)
    (fun i q => dot_S100x1024_S1024x512_S100x512_1_0_0_1_n_n.rhsIdx_val_of_single rfl i q)
    (fun i q => by
      unfold DotDims.rhsIdx
      rw [dif_neg (show ¬(1 : Fin S1024x512.rank) ∈ dot_S100x1024_S1024x512_S100x512_1_0_0_1_n_n.rhsBatch by decide),
        dif_pos (show (1 : Fin S1024x512.rank) ∈ dot_S100x1024_S1024x512_S100x512_1_0_0_1_n_n.rhsNonContracting by decide)]
      rfl)
    none l r c f

/-! ## The first block: the accumulators are set -/

theorem pay2_apply (x1 : Vec Ideal S1024x512 .f32) (f f' : Fin 512) :
    k0_pay2 (F := Ideal) x1 (ix2 f f') = ∑ k : Fin 1024, x1 (ix2 k f) * x1 (ix2 k f') := by
  unfold k0_pay2 k0_pay1
  rw [shapeCast_self]
  exact gram_apply _ _ f f'

theorem pay3_apply (x1 : Vec Ideal S1024x512 .f32) (x2 : Vec Ideal S100x1024 .f32) (c : Fin 100) (f : Fin 512) :
    k0_pay3 (F := Ideal) x1 x2 (ix2 c f) = ∑ k : Fin 1024, x2 (ix2 c k) * x1 (ix2 k f) := by
  unfold k0_pay3 k0_pay1
  rw [shapeCast_self]
  exact proj_apply _ _ c f

/-- The sum of squares along a row of a [100, 1024] array, kept as a [100, 1] column, at (c, u). -/
theorem rowsq_apply (y : FVec Ideal S100x1024 .f32) (c : Fin 100) (u : Fin 1) :
    shapeCast S100x1
        (multiReduction (F := Ideal) .add [1] S100 (mulf y y) 0x00000000#32 reduces_S100x1024_S100 (.inl rfl) rfl)
        shapeCasts_S100_S100x1 (ix2 c u)
      = ∑ k : Fin 1024, y (ix2 c k) * y (ix2 c k) := by
  rw [Cert.LibKeepdims.shapeCast_a_a1_apply]
  exact Cert.LibRowReduce.multiReduction_add_rows (mulf y y) 0x00000000#32 reduces_S100x1024_S100 (.inl rfl) rfl c

theorem pay4_apply (x2 : Vec Ideal S100x1024 .f32) (c : Fin 100) (u : Fin 1) :
    k0_pay4 (F := Ideal) x2 (ix2 c u) = ∑ k : Fin 1024, x2 (ix2 c k) * x2 (ix2 c k) := by
  unfold k0_pay4
  rw [shapeCast_self]
  exact rowsq_apply x2 c u

/-! ## The middle blocks: the accumulators grow -/

theorem pay6_apply (x1 : Vec Ideal S1024x512 .f32) (q : Vec Ideal S512x512 .f32) (f f' : Fin 512) :
    k0_pay6 (F := Ideal) x1 q (ix2 f f') = q (ix2 f f') + ∑ k : Fin 1024, x1 (ix2 k f) * x1 (ix2 k f') := by
  unfold k0_pay6 k0_pay5
  rw [shapeCast_self, addf_apply]
  exact congrArg (q (ix2 f f') + ·) (gram_apply _ _ f f')

theorem pay7_apply (x1 : Vec Ideal S1024x512 .f32) (x2 : Vec Ideal S100x1024 .f32) (p : Vec Ideal S100x512 .f32)
    (c : Fin 100) (f : Fin 512) :
    k0_pay7 (F := Ideal) x1 x2 p (ix2 c f) = p (ix2 c f) + ∑ k : Fin 1024, x2 (ix2 c k) * x1 (ix2 k f) := by
  unfold k0_pay7 k0_pay5
  rw [shapeCast_self, addf_apply]
  exact congrArg (p (ix2 c f) + ·) (proj_apply _ _ c f)

theorem pay8_apply (x2 : Vec Ideal S100x1024 .f32) (w : Vec Ideal S100x1 .f32) (c : Fin 100) (u : Fin 1) :
    k0_pay8 (F := Ideal) x2 w (ix2 c u) = w (ix2 c u) + ∑ k : Fin 1024, x2 (ix2 c k) * x2 (ix2 c k) := by
  unfold k0_pay8
  rw [shapeCast_self, addf_apply]
  exact congrArg (w (ix2 c u) + ·) (rowsq_apply x2 c u)

/-! ## The last block: rows and lanes from 784 on read as 0 -/

/-- Block entry (k, f) of the projection rows in the last block: 0 from row 784 on. -/
def mk1 (x1 : Vec Ideal S1024x512 .f32) (k : Fin 1024) (f : Fin 512) : EReal :=
  if k.val < 784 then x1 (ix2 k f) else 0

/-- Block entry (c, k) of the centroids in the last block: 0 from lane 784 on. -/
def mk2 (x2 : Vec Ideal S100x1024 .f32) (c : Fin 100) (k : Fin 1024) : EReal :=
  if k.val < 784 then x2 (ix2 c k) else 0

/-- For a number below 1024, the signed comparison of its 32-bit word with the word 784 is the comparison of the
    numbers. -/
theorem slt_784 : ∀ k : Fin 1024,
    IntOp.cmpi .slt (BitVec.ofNat 32 k.val) 784#32 = if k.val < 784 then 1#1 else 0#1 := by
  decide +kernel

/-- A select on that comparison is the `if` on the numbers. -/
theorem select_slt_784 {α : Type} (k : Fin 1024) (A B : α) :
    Scalar.select (IntOp.cmpi .slt (BitVec.ofNat 32 k.val) 784#32) A B = if k.val < 784 then A else B := by
  rw [slt_784 k]
  split
  · exact select_one A B
  · exact select_zero A B

theorem pay11_apply (x1 : Vec Ideal S1024x512 .f32) (k : Fin 1024) (f : Fin 512) :
    k0_pay11 (F := Ideal) x1 (ix2 k f) = mk1 x1 k f := by
  unfold k0_pay11
  rw [truncf_apply, select_apply, broadcast_apply]
  show Scalar.select (IntOp.cmpi .slt (iota .tc S1024x512 32 [0] iota_S1024x512_d0_w32 (ix2 k f))
      (broadcast S1024x512 784#32 (ix2 k f))) _ _ = _
  rw [iota_single_apply, broadcast_apply]
  show Scalar.select (IntOp.cmpi .slt (BitVec.ofNat 32 k.val) 784#32) (x1 (ix2 k f)) (Ideal.ofBits .f32 0x00000000#32) = _
  rw [select_slt_784, Ideal.ofBits_zero_f32]
  rfl

theorem pay10_apply (x2 : Vec Ideal S100x1024 .f32) (c : Fin 100) (k : Fin 1024) :
    k0_pay10 (F := Ideal) x2 (ix2 c k) = mk2 x2 c k := by
  unfold k0_pay10
  rw [select_apply, broadcast_apply]
  show Scalar.select (IntOp.cmpi .slt (iota .tc S100x1024 32 [1] iota_S100x1024_d1_w32 (ix2 c k))
      (broadcast S100x1024 784#32 (ix2 c k))) _ _ = _
  rw [iota_single_apply, broadcast_apply]
  show Scalar.select (IntOp.cmpi .slt (BitVec.ofNat 32 k.val) 784#32) (x2 (ix2 c k)) (Ideal.ofBits .f32 0x00000000#32) = _
  rw [select_slt_784, Ideal.ofBits_zero_f32]
  rfl

theorem pay12_apply (x1 : Vec Ideal S1024x512 .f32) (q : Vec Ideal S512x512 .f32) (f f' : Fin 512) :
    k0_pay12 (F := Ideal) x1 q (ix2 f f') = q (ix2 f f') + ∑ k : Fin 1024, mk1 x1 k f * mk1 x1 k f' := by
  unfold k0_pay12
  rw [shapeCast_self, addf_apply]
  refine congrArg (q (ix2 f f') + ·) ((gram_apply _ _ f f').trans ?_)
  exact Finset.sum_congr rfl fun k _ => by rw [pay11_apply, pay11_apply]

theorem pay13_apply (x1 : Vec Ideal S1024x512 .f32) (x2 : Vec Ideal S100x1024 .f32) (p : Vec Ideal S100x512 .f32)
    (c : Fin 100) (f : Fin 512) :
    k0_pay13 (F := Ideal) x1 x2 p (ix2 c f) = p (ix2 c f) + ∑ k : Fin 1024, mk2 x2 c k * mk1 x1 k f := by
  unfold k0_pay13
  rw [shapeCast_self, addf_apply]
  refine congrArg (p (ix2 c f) + ·) ((proj_apply _ _ c f).trans ?_)
  exact Finset.sum_congr rfl fun k _ => by rw [truncf_apply, pay10_apply, pay11_apply]

theorem pay14_apply (x2 : Vec Ideal S100x1024 .f32) (w : Vec Ideal S100x1 .f32) (c : Fin 100) (u : Fin 1) :
    k0_pay14 (F := Ideal) x2 w (ix2 c u) = w (ix2 c u) + ∑ k : Fin 1024, mk2 x2 c k * mk2 x2 c k := by
  unfold k0_pay14
  rw [shapeCast_self, addf_apply]
  refine congrArg (w (ix2 c u) + ·) ((rowsq_apply (k0_pay10 (F := Ideal) x2) c u).trans ?_)
  exact Finset.sum_congr rfl fun k _ => by rw [pay10_apply]

/-! ## The scores from the accumulators -/

/-- S Q on a block of samples: [2048, 512] · [512, 512] at (r, f'). -/
theorem sq_apply {φ₁ φ₂ : FTy} (l : FVec Ideal S2048x512 φ₁) (r : FVec Ideal S512x512 φ₂) (i : Fin 2048) (f' : Fin 512) :
    FloatOps.matmul dot_S2048x512_S512x512_S2048x512_1_0_0_1_n_n none l r
        (constant (F := Ideal) S2048x512 .f32 0x00000000#32) (ix2 i f')
      = ∑ f : Fin 512, l (ix2 i f) * r (ix2 f f') :=
  Cert.LibMatmul.matmul_zero_ix2 dot_S2048x512_S512x512_S2048x512_1_0_0_1_n_n rfl rfl
    (fun i q => by
      unfold DotDims.lhsIdx
      rw [dif_neg (show ¬(0 : Fin S2048x512.rank) ∈ dot_S2048x512_S512x512_S2048x512_1_0_0_1_n_n.lhsBatch by decide),
        dif_pos (show (0 : Fin S2048x512.rank) ∈ dot_S2048x512_S512x512_S2048x512_1_0_0_1_n_n.lhsNonContracting by decide)]
      rfl)
    (fun i q => dot_S2048x512_S512x512_S2048x512_1_0_0_1_n_n.lhsIdx_val_of_single rfl i q)
    (fun i q => dot_S2048x512_S512x512_S2048x512_1_0_0_1_n_n.rhsIdx_val_of_single rfl i q)
    (fun i q => by
      unfold DotDims.rhsIdx
      rw [dif_neg (show ¬(1 : Fin S512x512.rank) ∈ dot_S2048x512_S512x512_S2048x512_1_0_0_1_n_n.rhsBatch by decide),
        dif_pos (show (1 : Fin S512x512.rank) ∈ dot_S2048x512_S512x512_S2048x512_1_0_0_1_n_n.rhsNonContracting by decide)]
      rfl)
    none l r i f'

/-- S Pᵀ on a block of samples: [2048, 512] · [100, 512]ᵀ at (r, c). -/
theorem sp_apply {φ₁ φ₂ : FTy} (l : FVec Ideal S2048x512 φ₁) (r : FVec Ideal S100x512 φ₂) (i : Fin 2048) (c : Fin 100) :
    FloatOps.matmul dot_S2048x512_S100x512_S2048x100_1_1_0_0_n_n none l r
        (constant (F := Ideal) S2048x100 .f32 0x00000000#32) (ix2 i c)
      = ∑ f : Fin 512, l (ix2 i f) * r (ix2 c f) :=
  Cert.LibMatmulNT.matmul_zero_nt_ix2 dot_S2048x512_S100x512_S2048x100_1_1_0_0_n_n rfl rfl
    (fun i q => by
      unfold DotDims.lhsIdx
      rw [dif_neg (show ¬(0 : Fin S2048x512.rank) ∈ dot_S2048x512_S100x512_S2048x100_1_1_0_0_n_n.lhsBatch by decide),
        dif_pos (show (0 : Fin S2048x512.rank) ∈ dot_S2048x512_S100x512_S2048x100_1_1_0_0_n_n.lhsNonContracting by decide)]
      rfl)
    (fun i q => dot_S2048x512_S100x512_S2048x100_1_1_0_0_n_n.lhsIdx_val_of_single rfl i q)
    (fun i q => by
      unfold DotDims.rhsIdx
      rw [dif_neg (show ¬(0 : Fin S100x512.rank) ∈ dot_S2048x512_S100x512_S2048x100_1_1_0_0_n_n.rhsBatch by decide),
        dif_pos (show (0 : Fin S100x512.rank) ∈ dot_S2048x512_S100x512_S2048x100_1_1_0_0_n_n.rhsNonContracting by decide)]
      rfl)
    (fun i q => dot_S2048x512_S100x512_S2048x100_1_1_0_0_n_n.rhsIdx_val_of_single rfl i q)
    none l r i c

/-- A [100, 1] column viewed as a [1, 100] row holds, at (u, c), the column's entry (c, 0). -/
theorem shapeCast_col_row_apply {α : Type} (x : S100x1.Idx → α) (h : S100x1.ShapeCasts S1x100) (u : Fin 1) (c : Fin 100) :
    shapeCast S1x100 x h (ix2 u c) = x (ix2 c (0 : Fin 1)) :=
  shapeCast_apply x h _ _ (by
    have hu : u.val = 0 := by omega
    rw [Shape.rowMajor_val_two, Shape.rowMajor_val_two]
    show c.val * 1 + 0 = u.val * 100 + c.val
    rw [hu, Nat.mul_one, Nat.add_zero, Nat.zero_mul, Nat.zero_add])

/-- The squared norm of the encoded sample, as the kernel takes it: the row sums of (S Q) ∘ S, kept as a column. -/
theorem sqnorm_apply (x0 : Vec Ideal S2048x512 .f32) (q : Vec Ideal S512x512 .f32) (i : Fin 2048) (u : Fin 1) :
    shapeCast S2048x1
        (multiReduction (F := Ideal) .add [1] S2048
          (mulf (FloatOps.matmul dot_S2048x512_S512x512_S2048x512_1_0_0_1_n_n none
              (truncf (F := Ideal) .bf16 x0 bitsLt_bf16_f32) (truncf (F := Ideal) .bf16 q bitsLt_bf16_f32)
              (constant (F := Ideal) S2048x512 .f32 0x00000000#32)) x0)
          0x00000000#32 reduces_S2048x512_S2048 (.inl rfl) rfl)
        shapeCasts_S2048_S2048x1 (ix2 i u)
      = ∑ f' : Fin 512, (∑ f : Fin 512, x0 (ix2 i f) * q (ix2 f f')) * x0 (ix2 i f') := by
  rw [Cert.LibKeepdims.shapeCast_a_a1_apply]
  refine (Cert.LibRowReduce.multiReduction_add_rows _ 0x00000000#32 reduces_S2048x512_S2048 (.inl rfl) rfl i).trans ?_
  refine Finset.sum_congr rfl fun f' _ => ?_
  rw [mulf_apply, sq_apply]
  rfl

theorem pay9_apply (x0 : Vec Ideal S2048x512 .f32) (q : Vec Ideal S512x512 .f32) (p : Vec Ideal S100x512 .f32)
    (w : Vec Ideal S100x1 .f32) (r : Fin 2048) (c : Fin 100) :
    k0_pay9 (F := Ideal) x0 q p w (ix2 r c)
      = Ideal.div (∑ f : Fin 512, x0 (ix2 r f) * p (ix2 c f))
          (max (Ideal.sqrt (max (∑ f' : Fin 512, (∑ f : Fin 512, x0 (ix2 r f) * q (ix2 f f')) * x0 (ix2 r f')) 0))
              Cert.Spec.epsE
            * max (Ideal.sqrt (w (ix2 c 0))) Cert.Spec.epsE) := by
  unfold k0_pay9
  rw [divf_apply, mulf_apply, Cert.LibKeepdims.broadcastTo_a1_ab_apply, broadcastTo_1b_ab_apply,
    shapeCast_col_row_apply, maximumf_apply, maximumf_apply, broadcast_apply, broadcast_apply]
  refine congrArg₂ Ideal.div ((sp_apply _ _ r c).trans rfl) (congrArg₂ (· * ·) ?_ rfl)
  show max (Ideal.sqrt (max
      (shapeCast S2048x1
        (multiReduction (F := Ideal) .add [1] S2048
          (mulf (FloatOps.matmul dot_S2048x512_S512x512_S2048x512_1_0_0_1_n_n none
              (truncf (F := Ideal) .bf16 x0 bitsLt_bf16_f32) (truncf (F := Ideal) .bf16 q bitsLt_bf16_f32)
              (constant (F := Ideal) S2048x512 .f32 0x00000000#32)) x0)
          0x00000000#32 reduces_S2048x512_S2048 (.inl rfl) rfl)
        shapeCasts_S2048_S2048x1 (ix2 r 0))
      (Ideal.ofBits .f32 0x00000000#32))) Cert.Spec.epsE = _
  rw [sqnorm_apply, Ideal.ofBits_zero_f32]

end Cert.Payloads

end
-- ==== Proof.BlockReads.lean ====
/-
  The windows' blocks read at an index. Window 1 sweeps the 10000 projection rows in ten blocks of 1024 rows and
  window 2 the 10000 centroid columns in ten blocks of 1024 columns; block 9 of either overhangs its array and holds
  784 valid entries, the rest of the staging buffer being the zero filler. Window 0 (samples) and window 3 (scores)
  hold rows 2048 (t − 10) … 2048 (t − 10) + 2047 at the points t = 10, 11. A block's coordinate in the array is
  always (block index) × (block size) + (the coordinate inside the block).
-/
import proofs.«119552_g15693810500123_cont_7to1_75_24_alg».proof.Proof.IdealData
import proofs.«119552_g15693810500123_cont_7to1_75_24_alg».proof.Proof.Spec
import Idealize.ShloMosaic.PureOps.Ideal.Laws

set_option maxRecDepth 16384

noncomputable section

namespace Cert.BlockReads

open Cert.KernelIdeal Cert.KernelIdeal.Gen Cert.KernelIdeal.Hand Idealize.ShloMosaic Idealize.ShloMosaic.TcCoe
  Idealize.ShloMosaic.ValueIdx Idealize.SL.Sem
open Idealize.ShloMosaic.Pipeline (Window)

variable (m : (ℓ : Loc nD τ sig) → Buf (Elt Ideal) ℓ)

/-- Window 1 (projection rows, blocks of 1024 rows): up to point 9 the block index is the point; the block's
    part inside the array is all 1024 rows before point 9 and the first 784 rows at point 9, all 512 columns. -/
theorem win1_facts : ∀ t : Fin grid0.N, t.val ≤ 9 →
    win0_1.index t 0 = t.val ∧ win0_1.index t 1 = 0 ∧ win0_1.xsize (grid0.coords t) 1 = 512 ∧
    (t.val < 9 → win0_1.xsize (grid0.coords t) 0 = 1024) ∧ (t.val = 9 → win0_1.xsize (grid0.coords t) 0 = 784) := by
  decide +kernel

/-- Window 1's buffer with the zero filler, entry (k, f) at point t ≤ 9: row 1024 t + k of the projection array,
    0 past its last row. -/
theorem X1_apply (c : Dev nD) (t : Fin cfg0.N) (ht : t.val ≤ 9) (k : Fin 1024) (f : Fin 512) :
    X1 m c t (ix2 k f) = Cert.Spec.eblk (m ((c : Thread nD τ).loc main_arg1)) t.val k f := by
  obtain ⟨hi0, hi1, hx1, hx0a, hx0b⟩ := win1_facts t ht
  unfold X1 buf1 Cert.Spec.eblk
  by_cases hlt : 1024 * t.val + k.val < 10000
  · rw [dif_pos hlt]
    have hj : ∀ a, ((ix2 k f : S1024x512.Idx) a).val < win0_1.xsize (grid0.coords t) a := fun a => by
      match a with
      | ⟨0, _⟩ =>
        show k.val < win0_1.xsize (grid0.coords t) 0
        rcases Nat.lt_or_ge t.val 9 with h9 | h9
        · rw [hx0a h9]; exact k.isLt
        · rw [hx0b (by omega)]; omega
      | ⟨1, _⟩ => show f.val < win0_1.xsize (grid0.coords t) 1; rw [hx1]; exact f.isLt
    have e : win0_1.xinj (grid0.coords t) (fun a => ⟨((ix2 k f : S1024x512.Idx) a).val, hj a⟩) = ix2 k f :=
      funext fun a => Fin.ext rfl
    rw [← e, Window.fill_xinj]
    unfold iblk
    rw [View.read_apply]
    show V m c main_arg1 _ = m (c.tc.loc main_arg1) _
    unfold V
    congr 1
    funext a
    apply Fin.ext
    match a with
    | ⟨0, _⟩ => show win0_1.index t 0 * 1024 + 1 * k.val = 1024 * t.val + k.val; rw [hi0]; omega
    | ⟨1, _⟩ => show win0_1.index t 1 * 512 + 1 * f.val = f.val; rw [hi1]; omega
  · rw [dif_neg hlt]
    have hmv : ¬win0_1.moved (grid0.coords t) (ix2 k f) = true := fun h => by
      have h0 : k.val < win0_1.xsize (grid0.coords t) 0 := (win0_1.moved_iff _ _).mp h 0
      have h9 : t.val = 9 := by
        rcases Nat.lt_or_ge t.val 9 with h9 | h9
        · exfalso; have := k.isLt; omega
        · omega
      rw [hx0b h9] at h0; omega
    rw [Window.fill_of_not_moved _ _ _ _ hmv]
    exact Ideal.ofBits_zero_f32

/-- Window 2 (centroids, blocks of 1024 columns): up to point 9 the block index is (0, the point); the block's
    part inside the array is all 100 rows, and all 1024 columns before point 9, the first 784 at point 9. -/
theorem win2_facts : ∀ t : Fin grid0.N, t.val ≤ 9 →
    win0_2.index t 0 = 0 ∧ win0_2.index t 1 = t.val ∧ win0_2.xsize (grid0.coords t) 0 = 100 ∧
    (t.val < 9 → win0_2.xsize (grid0.coords t) 1 = 1024) ∧ (t.val = 9 → win0_2.xsize (grid0.coords t) 1 = 784) := by
  decide +kernel

/-- Window 2's buffer with the zero filler, entry (cc, k) at point t ≤ 9: column 1024 t + k of the centroid array,
    0 past its last column. -/
theorem X2_apply (c : Dev nD) (t : Fin cfg0.N) (ht : t.val ≤ 9) (cc : Fin 100) (k : Fin 1024) :
    X2 m c t (ix2 cc k) = Cert.Spec.cblk (m ((c : Thread nD τ).loc main_arg2)) t.val cc k := by
  obtain ⟨hi0, hi1, hx0, hx1a, hx1b⟩ := win2_facts t ht
  unfold X2 buf2 Cert.Spec.cblk
  by_cases hlt : 1024 * t.val + k.val < 10000
  · rw [dif_pos hlt]
    have hj : ∀ a, ((ix2 cc k : S100x1024.Idx) a).val < win0_2.xsize (grid0.coords t) a := fun a => by
      match a with
      | ⟨0, _⟩ => show cc.val < win0_2.xsize (grid0.coords t) 0; rw [hx0]; exact cc.isLt
      | ⟨1, _⟩ =>
        show k.val < win0_2.xsize (grid0.coords t) 1
        rcases Nat.lt_or_ge t.val 9 with h9 | h9
        · rw [hx1a h9]; exact k.isLt
        · rw [hx1b (by omega)]; omega
    have e : win0_2.xinj (grid0.coords t) (fun a => ⟨((ix2 cc k : S100x1024.Idx) a).val, hj a⟩) = ix2 cc k :=
      funext fun a => Fin.ext rfl
    rw [← e, Window.fill_xinj]
    unfold iblk
    rw [View.read_apply]
    show V m c main_arg2 _ = m (c.tc.loc main_arg2) _
    unfold V
    congr 1
    funext a
    apply Fin.ext
    match a with
    | ⟨0, _⟩ => show win0_2.index t 0 * 100 + 1 * cc.val = cc.val; rw [hi0]; omega
    | ⟨1, _⟩ => show win0_2.index t 1 * 1024 + 1 * k.val = 1024 * t.val + k.val; rw [hi1]; omega
  · rw [dif_neg hlt]
    have hmv : ¬win0_2.moved (grid0.coords t) (ix2 cc k) = true := fun h => by
      have h1 : k.val < win0_2.xsize (grid0.coords t) 1 := (win0_2.moved_iff _ _).mp h 1
      have h9 : t.val = 9 := by
        rcases Nat.lt_or_ge t.val 9 with h9 | h9
        · exfalso; have := k.isLt; omega
        · omega
      rw [hx1b h9] at h1; omega
    rw [Window.fill_of_not_moved _ _ _ _ hmv]
    exact Ideal.ofBits_zero_f32

/-- Window 0 (samples, blocks of 2048 rows): from point 10 on the block index is (the point − 10, 0). -/
theorem win0_facts : ∀ t : Fin grid0.N, 10 ≤ t.val → win0_0.index t 0 = t.val - 10 ∧ win0_0.index t 1 = 0 := by
  decide +kernel

/-- Window 0's block at a point t ≥ 10 is rows 2048 (t − 10) … of the samples. -/
theorem x0_apply (c : Dev nD) (t : Fin cfg0.N) (ht : 10 ≤ t.val) (r : Fin 2048) (f : Fin 512) :
    (iblk m c 0 t : Vec Ideal S2048x512 .f32) (ix2 r f)
      = m ((c : Thread nD τ).loc main_arg0)
          (ix2 ⟨2048 * (t.val - 10) + r.val, by have := t.isLt; have : cfg0.N = 12 := N_0; omega⟩ f) := by
  obtain ⟨hi0, hi1⟩ := win0_facts t ht
  unfold iblk
  rw [View.read_apply]
  show V m c main_arg0 _ = m (c.tc.loc main_arg0) _
  unfold V
  congr 1
  funext a
  apply Fin.ext
  match a with
  | ⟨0, _⟩ => show win0_0.index t 0 * 2048 + 1 * r.val = 2048 * (t.val - 10) + r.val; rw [hi0]; omega
  | ⟨1, _⟩ => show win0_0.index t 1 * 512 + 1 * f.val = f.val; rw [hi1]; omega

/-- Window 3 (scores, blocks of 2048 rows): from point 10 on the block index is (the point − 10, 0). -/
theorem win3_facts : ∀ t : Fin grid0.N, 10 ≤ t.val → win0_3.index t 0 = t.val - 10 ∧ win0_3.index t 1 = 0 := by
  decide +kernel

/-- A block of the score array read at point t ≥ 10 is rows 2048 (t − 10) … of the array. -/
theorem blk3_read (Gf : Cert.Spec.ShO.Idx → EReal) (c : Dev nD) (t : Fin cfg0.N) (ht : 10 ≤ t.val)
    (r : Fin 2048) (cc : Fin 100) :
    ((cfg0.win 3).blk t).view.read (Elt Ideal)
        (Gf : Buf (Elt Ideal) ((cfg0.win 3).arr.view.loc (c : Thread nD τ))) (ix2 r cc)
      = Gf (ix2 ⟨2048 * (t.val - 10) + r.val, by have := t.isLt; have : cfg0.N = 12 := N_0; omega⟩ cc) := by
  obtain ⟨hi0, hi1⟩ := win3_facts t ht
  rw [View.read_apply]
  show Gf _ = Gf _
  congr 1
  funext a
  apply Fin.ext
  match a with
  | ⟨0, _⟩ => show win0_3.index t 0 * 2048 + 1 * r.val = 2048 * (t.val - 10) + r.val; rw [hi0]; omega
  | ⟨1, _⟩ => show win0_3.index t 1 * 100 + 1 * cc.val = cc.val; rw [hi1]; omega

/-- The scores are written back exactly at points 10 and 11. -/
theorem flush3_iff : ∀ t : Fin cfg0.N, (cfg0.win 3).flush t = true ↔ 10 ≤ t.val :=
  (by decide +kernel : ∀ t : Fin grid0.N, win0_3.flush t = true ↔ 10 ≤ t.val)

/-- An index of the score array lies in point t's block when each coordinate lies in the block's range. -/
theorem mem_blk3 (t : Fin cfg0.N) (i : S4096x100.Idx) :
    i ∈ ((cfg0.win 3).blk t).view.set ↔ ∀ a : Fin 2, win0_3.index t a * S2048x100.size a ≤ (i a).val
      ∧ (i a).val < win0_3.index t a * S2048x100.size a + S2048x100.size a := by
  show i ∈ ((View.whole main_v0).slice (win0_3.rect t)).set ↔ _
  rw [View.set_slice_whole, Rect.mem_set_unit]
  exact Iff.rfl

/-- The two written-back blocks tile the score array: rows below 2048 lie in point 10's block, the others in
    point 11's. -/
theorem cover3 (c : Dev nD) : ∀ i : ((cfg0.win 3).arr.view.loc (c : Thread nD τ)).2.ty.Idx,
    ∃ t : Fin cfg0.N, (cfg0.win 3).flush t = true ∧ i ∈ ((cfg0.win 3).blk t).view.set := by
  intro i
  have hi0 : ((i : S4096x100.Idx) 0).val < 4096 := ((i : S4096x100.Idx) 0).isLt
  have hi1 : ((i : S4096x100.Idx) 1).val < 100 := ((i : S4096x100.Idx) 1).isLt
  have hv10 : t0_10.val = 10 := rfl
  have hv11 : t0_11.val = 11 := rfl
  by_cases h : ((i : S4096x100.Idx) 0).val < 2048
  · obtain ⟨e0, e1⟩ := win3_facts t0_10 (by rw [hv10])
    refine ⟨t0_10, (flush3_iff t0_10).mpr (by rw [hv10]), (mem_blk3 t0_10 i).mpr fun a => ?_⟩
    match a with
    | ⟨0, _⟩ =>
      show win0_3.index t0_10 0 * 2048 ≤ ((i : S4096x100.Idx) 0).val
        ∧ ((i : S4096x100.Idx) 0).val < win0_3.index t0_10 0 * 2048 + 2048
      rw [e0, hv10]; omega
    | ⟨1, _⟩ =>
      show win0_3.index t0_10 1 * 100 ≤ ((i : S4096x100.Idx) 1).val
        ∧ ((i : S4096x100.Idx) 1).val < win0_3.index t0_10 1 * 100 + 100
      rw [e1]; omega
  · obtain ⟨e0, e1⟩ := win3_facts t0_11 (by rw [hv11]; omega)
    refine ⟨t0_11, (flush3_iff t0_11).mpr (by rw [hv11]; omega), (mem_blk3 t0_11 i).mpr fun a => ?_⟩
    match a with
    | ⟨0, _⟩ =>
      show win0_3.index t0_11 0 * 2048 ≤ ((i : S4096x100.Idx) 0).val
        ∧ ((i : S4096x100.Idx) 0).val < win0_3.index t0_11 0 * 2048 + 2048
      rw [e0, hv11]; omega
    | ⟨1, _⟩ =>
      show win0_3.index t0_11 1 * 100 ≤ ((i : S4096x100.Idx) 1).val
        ∧ ((i : S4096x100.Idx) 1).val < win0_3.index t0_11 1 * 100 + 100
      rw [e1]; omega

end Cert.BlockReads

end
-- ==== Proof.KernelAlgebra.lean ====
/-
  The algebra of the certificate: the block-accumulated score equals the clipped cosine score.

  Three steps. (i) Sweeping d < 10000 in ten blocks of 1024, with the entries past 10000 read as 0, sums every
  d < 10000 exactly once. (ii) With Q = Wᵀ W and P = Cn W, Σ_f' (Σ_f s(b,f) Q(f,f')) s(b,f') = Σ_d enc(b,d)² and
  Σ_f s(b,f) P(c,f) = Σ_d enc(b,d) cn(c,d), by exchanging finite sums. (iii) On finite arrays every extended-real
  operation of the accumulated formula is the coercion of the real one: the sum of squares is nonnegative, so the
  inner max with 0 is the identity and the square root is the real one; ε is a positive real, so both clipped norms
  are positive reals and the quotient is the real quotient.
-/
import proofs.«119552_g15693810500123_cont_7to1_75_24_alg».proof.Proof.Spec
import Mathlib.Algebra.BigOperators.Fin
import Mathlib.Algebra.BigOperators.Ring.Finset
import Mathlib.Algebra.Order.BigOperators.Ring.Finset
import Mathlib.Tactic

noncomputable section

namespace Cert.KernelAlgebra

open Cert.Spec Idealize.ShloMosaic Idealize.ShloMosaic.ValueIdx
open scoped BigOperators

/-! ## Coercions -/

/-- The coercion ℝ → EReal commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion ℝ → EReal commutes with max. -/
theorem coe_max (x y : ℝ) : ((max x y : ℝ) : EReal) = max (x : EReal) (y : EReal) :=
  EReal.coe_strictMono.monotone.map_max

/-! ## (i) Ten blocks of 1024 tile d < 10000 -/

/-- Blocks of length n laid end to end: Σ_{t<m} Σ_{k<n} f (n t + k) = Σ_{i < m n} f i. -/
theorem sum_blocks (f : ℕ → ℝ) (n m : ℕ) :
    ∑ t ∈ Finset.range m, ∑ k ∈ Finset.range n, f (n * t + k) = ∑ i ∈ Finset.range (n * m), f i := by
  induction m with
  | zero => simp
  | succ m ih => rw [Finset.sum_range_succ, ih, Nat.mul_succ, Finset.sum_range_add]

/-- The regrouping: ten blocks of 1024, reading 0 past 10000, sum each d < 10000 once. -/
theorem regroup (g : Fin 10000 → ℝ) :
    ∑ t ∈ Finset.range 10, ∑ k : Fin 1024,
        (if h : 1024 * t + k.val < 10000 then g ⟨1024 * t + k.val, h⟩ else 0)
      = ∑ d : Fin 10000, g d := by
  have h1 : ∀ t : ℕ, ∑ k : Fin 1024, (if h : 1024 * t + k.val < 10000 then g ⟨1024 * t + k.val, h⟩ else 0)
      = ∑ k ∈ Finset.range 1024, (fun n : ℕ => if h : n < 10000 then g ⟨n, h⟩ else 0) (1024 * t + k) := by
    intro t
    rw [Finset.sum_range]
  simp only [h1]
  rw [sum_blocks (fun n : ℕ => if h : n < 10000 then g ⟨n, h⟩ else 0) 1024 10]
  have h2 : 1024 * 10 = 10000 + 240 := by norm_num
  rw [h2, Finset.sum_range_add, Finset.sum_range]
  have h3 : ∑ x ∈ Finset.range 240, (fun n : ℕ => if h : n < 10000 then g ⟨n, h⟩ else 0) (10000 + x) = 0 := by
    apply Finset.sum_eq_zero
    intro x _
    have : ¬ (10000 + x < 10000) := by omega
    simp only [this, dif_neg, not_false_eq_true]
  rw [h3, add_zero]
  apply Finset.sum_congr rfl
  intro d _
  simp only [d.isLt, dif_pos, Fin.eta]

/-- The same over the extended reals, for a product of two block entries. -/
theorem blocks_mul (a b : Fin 10000 → ℝ) :
    ∑ t ∈ Finset.range (9 + 1), ∑ k : Fin 1024,
        (if h : 1024 * t + k.val < 10000 then ((a ⟨1024 * t + k.val, h⟩ : ℝ) : EReal) else 0)
          * (if h : 1024 * t + k.val < 10000 then ((b ⟨1024 * t + k.val, h⟩ : ℝ) : EReal) else 0)
      = ((∑ d : Fin 10000, a d * b d : ℝ) : EReal) := by
  rw [← regroup (fun d => a d * b d), coe_sum]
  apply Finset.sum_congr rfl
  intro t _
  rw [coe_sum]
  apply Finset.sum_congr rfl
  intro k _
  by_cases h : 1024 * t + k.val < 10000
  · simp only [h, dif_pos, EReal.coe_mul]
  · simp only [h, dif_neg, not_false_eq_true, mul_zero, EReal.coe_zero]

/-! ## The threshold ε -/

/-- The f32 word 0x2B8CBCCC has sign 0, exponent field 87 and fraction field 0x0CBCCC: it denotes the positive
    real (2^23 + 0x0CBCCC) · 2^(87 - 127 - 23). -/
theorem epsE_coe : ∃ r : ℝ, 0 < r ∧ epsE = (r : EReal) := by
  refine ⟨(((2 ^ 23 + 0x0CBCCC : ℕ) : ℝ) * (2 : ℝ) ^ ((87 : ℤ) - (2 ^ (8 - 1) - 1) - (23 : ℕ))),
    by positivity, ?_⟩
  simp [epsE, Ideal.ofBits, Ideal.ieee]

theorem eps_pos : 0 < eps := by
  obtain ⟨r, hr, h⟩ := epsE_coe
  rw [eps, h, EReal.toReal_coe]
  exact hr

theorem epsE_eq : epsE = (eps : EReal) := by
  obtain ⟨r, _, h⟩ := epsE_coe
  rw [eps, h, EReal.toReal_coe]

/-! ## (ii) Exchanging the finite sums -/

/-- Σ_f s(b,f) P(c,f) = Σ_d enc(b,d) cn(c,d), where P(c,f) = Σ_d cn(c,d) w(d,f). -/
theorem num_eq (s : ShS.Idx → ℝ) (w : ShW.Idx → ℝ) (cn : ShC.Idx → ℝ) (b : Fin 4096) (c : Fin 100) :
    ∑ f : Fin 512, s (ix2 b f) * (∑ d : Fin 10000, cn (ix2 c d) * w (ix2 d f))
      = ∑ d : Fin 10000, enc s w b d * cn (ix2 c d) := by
  simp only [enc, Finset.mul_sum, Finset.sum_mul]
  rw [Finset.sum_comm]
  apply Finset.sum_congr rfl
  intro d _
  apply Finset.sum_congr rfl
  intro f _
  ring

/-- Σ_f' (Σ_f s(b,f) Q(f,f')) s(b,f') = Σ_d enc(b,d)², where Q(f,f') = Σ_d w(d,f) w(d,f'). -/
theorem norm_eq (s : ShS.Idx → ℝ) (w : ShW.Idx → ℝ) (b : Fin 4096) :
    ∑ f' : Fin 512, (∑ f : Fin 512, s (ix2 b f) * (∑ d : Fin 10000, w (ix2 d f) * w (ix2 d f'))) * s (ix2 b f')
      = ∑ d : Fin 10000, enc s w b d * enc s w b d := by
  have h : ∀ d : Fin 10000, enc s w b d * enc s w b d
      = ∑ f' : Fin 512, ∑ f : Fin 512, (s (ix2 b f) * (w (ix2 d f) * w (ix2 d f'))) * s (ix2 b f') := by
    intro d
    rw [enc, Finset.sum_mul_sum, Finset.sum_comm]
    apply Finset.sum_congr rfl
    intro f' _
    apply Finset.sum_congr rfl
    intro f _
    ring
  simp only [h, Finset.mul_sum, Finset.sum_mul]
  conv_rhs => rw [Finset.sum_comm]
  apply Finset.sum_congr rfl
  intro f' _
  conv_rhs => rw [Finset.sum_comm]

/-! ## (iii) The accumulated formula on finite arrays -/

theorem accQ_coe (w : ShW.Idx → ℝ) (f f' : Fin 512) :
    accQ (fun j => (w j : EReal)) 9 f f' = ((∑ d : Fin 10000, w (ix2 d f) * w (ix2 d f') : ℝ) : EReal) := by
  simp only [accQ, eblk]
  exact blocks_mul (fun d => w (ix2 d f)) (fun d => w (ix2 d f'))

theorem accP_coe (w : ShW.Idx → ℝ) (cn : ShC.Idx → ℝ) (c : Fin 100) (f : Fin 512) :
    accP (fun j => (w j : EReal)) (fun j => (cn j : EReal)) 9 c f
      = ((∑ d : Fin 10000, cn (ix2 c d) * w (ix2 d f) : ℝ) : EReal) := by
  simp only [accP, eblk, cblk]
  exact blocks_mul (fun d => cn (ix2 c d)) (fun d => w (ix2 d f))

theorem accN_coe (cn : ShC.Idx → ℝ) (c : Fin 100) :
    accN (fun j => (cn j : EReal)) 9 c = ((∑ d : Fin 10000, cn (ix2 c d) * cn (ix2 c d) : ℝ) : EReal) := by
  simp only [accN, cblk]
  exact blocks_mul (fun d => cn (ix2 c d)) (fun d => cn (ix2 c d))

/-- The numerator of the accumulated formula. -/
theorem numerator_coe (s : ShS.Idx → ℝ) (w : ShW.Idx → ℝ) (cn : ShC.Idx → ℝ) (b : Fin 4096) (c : Fin 100) :
    ∑ f : Fin 512, (s (ix2 b f) : EReal) * accP (fun j => (w j : EReal)) (fun j => (cn j : EReal)) 9 c f
      = ((∑ d : Fin 10000, enc s w b d * cn (ix2 c d) : ℝ) : EReal) := by
  rw [← num_eq s w cn b c, coe_sum]
  apply Finset.sum_congr rfl
  intro f _
  rw [accP_coe, EReal.coe_mul]

/-- The squared norm of the encoded sample in the accumulated formula. -/
theorem sqnorm_coe (s : ShS.Idx → ℝ) (w : ShW.Idx → ℝ) (b : Fin 4096) :
    ∑ f' : Fin 512, (∑ f : Fin 512, (s (ix2 b f) : EReal) * accQ (fun j => (w j : EReal)) 9 f f')
        * (s (ix2 b f') : EReal)
      = ((∑ d : Fin 10000, enc s w b d * enc s w b d : ℝ) : EReal) := by
  rw [← norm_eq s w b, coe_sum]
  apply Finset.sum_congr rfl
  intro f' _
  have h : ∑ f : Fin 512, (s (ix2 b f) : EReal) * accQ (fun j => (w j : EReal)) 9 f f'
      = ((∑ f : Fin 512, s (ix2 b f) * (∑ d : Fin 10000, w (ix2 d f) * w (ix2 d f')) : ℝ) : EReal) := by
    rw [coe_sum]
    apply Finset.sum_congr rfl
    intro f _
    rw [accQ_coe, EReal.coe_mul]
  rw [h, EReal.coe_mul]

/-- The accumulated formula on coercions of real arrays is the coercion of the score. -/
theorem Kout_coe (s : ShS.Idx → ℝ) (w : ShW.Idx → ℝ) (cn : ShC.Idx → ℝ) (b : Fin 4096) (c : Fin 100) :
    Kout (fun j => (s j : EReal)) (fun j => (w j : EReal)) (fun j => (cn j : EReal)) b c
      = ((score s w cn b c : ℝ) : EReal) := by
  have hA : (0 : ℝ) ≤ ∑ d : Fin 10000, enc s w b d * enc s w b d :=
    Finset.sum_nonneg (fun d _ => mul_self_nonneg _)
  have hB : (0 : ℝ) ≤ ∑ d : Fin 10000, cn (ix2 c d) * cn (ix2 c d) :=
    Finset.sum_nonneg (fun d _ => mul_self_nonneg _)
  have hA' : (0 : EReal) ≤ ((∑ d : Fin 10000, enc s w b d * enc s w b d : ℝ) : EReal) := by
    exact_mod_cast hA
  have hD : max (Real.sqrt (∑ d : Fin 10000, enc s w b d * enc s w b d)) eps
      * max (Real.sqrt (∑ d : Fin 10000, cn (ix2 c d) * cn (ix2 c d))) eps ≠ 0 := by
    have h1 : 0 < max (Real.sqrt (∑ d : Fin 10000, enc s w b d * enc s w b d)) eps :=
      lt_of_lt_of_le eps_pos (le_max_right _ _)
    have h2 : 0 < max (Real.sqrt (∑ d : Fin 10000, cn (ix2 c d) * cn (ix2 c d))) eps :=
      lt_of_lt_of_le eps_pos (le_max_right _ _)
    exact (mul_pos h1 h2).ne'
  show Ideal.div (∑ f : Fin 512, (s (ix2 b f) : EReal) * accP (fun j => (w j : EReal)) (fun j => (cn j : EReal)) 9 c f)
      (max (Ideal.sqrt (max (∑ f' : Fin 512,
          (∑ f : Fin 512, (s (ix2 b f) : EReal) * accQ (fun j => (w j : EReal)) 9 f f') * (s (ix2 b f') : EReal)) 0)) epsE
        * max (Ideal.sqrt (accN (fun j => (cn j : EReal)) 9 c)) epsE) = _
  rw [numerator_coe, sqnorm_coe, accN_coe, max_eq_left hA', Ideal.sqrt_coe, if_neg (not_lt.mpr hA),
    Ideal.sqrt_coe, if_neg (not_lt.mpr hB), epsE_eq, ← coe_max, ← coe_max, ← EReal.coe_mul,
    Ideal.div_coe hD, ← EReal.coe_mul, score, mul_one_div]

/-! ## The statement -/

/-- On finite arrays the block-accumulated score is the clipped cosine score. -/
theorem Kout_eq_G (S : Cert.Spec.ShS.Idx → EReal) (W : Cert.Spec.ShW.Idx → EReal) (Cn : Cert.Spec.ShC.Idx → EReal)
    (hS : Cert.Spec.Finite S) (hW : Cert.Spec.Finite W) (hC : Cert.Spec.Finite Cn) (b : Fin 4096) (c : Fin 100) :
    Cert.Spec.Kout S W Cn b c = Cert.Spec.G S W Cn (Idealize.ShloMosaic.ValueIdx.ix2 b c) := by
  obtain ⟨s, rfl⟩ : ∃ s : ShS.Idx → ℝ, S = fun j => (s j : EReal) :=
    ⟨fun j => (S j).toReal, funext fun j => by obtain ⟨r, hr⟩ := hS j; show S j = ((S j).toReal : EReal); rw [hr, EReal.toReal_coe]⟩
  obtain ⟨w, rfl⟩ : ∃ w : ShW.Idx → ℝ, W = fun j => (w j : EReal) :=
    ⟨fun j => (W j).toReal, funext fun j => by obtain ⟨r, hr⟩ := hW j; show W j = ((W j).toReal : EReal); rw [hr, EReal.toReal_coe]⟩
  obtain ⟨cn, rfl⟩ : ∃ cn : ShC.Idx → ℝ, Cn = fun j => (cn j : EReal) :=
    ⟨fun j => (Cn j).toReal, funext fun j => by obtain ⟨r, hr⟩ := hC j; show Cn j = ((Cn j).toReal : EReal); rw [hr, EReal.toReal_coe]⟩
  rw [Kout_coe]
  simp only [G, EReal.toReal_coe]

end Cert.KernelAlgebra

end
-- ==== Proof.IdealValue.lean ====
/-
  What the idealized kernel's result array holds: the clipped cosine scores.

  Reading the proof data at the extended reals: after point n ≤ 9 the three scratch accumulators hold the sums over
  the hyperdimension blocks 0 … n of Wᵀ W, Cn W and the centroids' squared entries (induction on the point: point 0
  stores the first block's products, each later point adds its own, and at point 9 the body's mask reads rows and
  lanes 784 … 1023 as 0, which is how the specification reads the overhang of the last block). Points 10 and 11
  then store, for rows 0 … 2047 and 2048 … 4095 of the samples, the quotient of Σ_f S(b, f) P(c, f) by the product
  of the two clipped norms: the specification's `Kout`. The two blocks cover the result array, so it ends holding
  `Kout` everywhere, which over finite inputs is the score `G`.
-/
import proofs.«119552_g15693810500123_cont_7to1_75_24_alg».proof.Proof.IdealBody
import proofs.«119552_g15693810500123_cont_7to1_75_24_alg».proof.Proof.Payloads
import proofs.«119552_g15693810500123_cont_7to1_75_24_alg».proof.Proof.BlockReads
import proofs.«119552_g15693810500123_cont_7to1_75_24_alg».proof.Proof.KernelAlgebra
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.Payloads Cert.BlockReads
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg) (c : Dev nD)

/-- The three argument arrays as the region finds them. -/
abbrev argS : Cert.Spec.ShS.Idx → EReal := m ((c : Thread nD τ).loc main_arg0)
abbrev argW : Cert.Spec.ShW.Idx → EReal := m ((c : Thread nD τ).loc main_arg1)
abbrev argC : Cert.Spec.ShC.Idx → EReal := m ((c : Thread nD τ).loc main_arg2)

/-! ## The accumulators are the block sums -/

theorem scr_succ_interior (n : ℕ) (hn : n + 1 < cfg0.N) (h : n + 1 < 9) :
    scr (F := Ideal) m c (n + 1) hn
      = (k0_pay6 (X1 m c ⟨n + 1, hn⟩) (scr m c n (Nat.lt_of_succ_lt hn)).1,
          k0_pay7 (X1 m c ⟨n + 1, hn⟩) (X2 m c ⟨n + 1, hn⟩) (scr m c n (Nat.lt_of_succ_lt hn)).2.1,
          k0_pay8 (X2 m c ⟨n + 1, hn⟩) (scr m c n (Nat.lt_of_succ_lt hn)).2.2) := if_pos h

theorem scr_succ_edge (n : ℕ) (hn : n + 1 < cfg0.N) (h : n + 1 = 9) :
    scr (F := Ideal) m c (n + 1) hn
      = (k0_pay12 (X1 m c ⟨n + 1, hn⟩) (scr m c n (Nat.lt_of_succ_lt hn)).1,
          k0_pay13 (X1 m c ⟨n + 1, hn⟩) (X2 m c ⟨n + 1, hn⟩) (scr m c n (Nat.lt_of_succ_lt hn)).2.1,
          k0_pay14 (X2 m c ⟨n + 1, hn⟩) (scr m c n (Nat.lt_of_succ_lt hn)).2.2) :=
  (if_neg (by omega)).trans (if_pos h)

/-- The last block of projection rows under the body's mask is the specification's block 9. -/
theorem mk1_edge (t : Fin cfg0.N) (h9 : t.val = 9) (k : Fin 1024) (f : Fin 512) :
    mk1 (X1 (F := Ideal) m c t) k f = Cert.Spec.eblk (argW m c) t.val k f := by
  unfold mk1; rw [X1_apply m c t (by omega) k f]
  by_cases hk : k.val < 784
  · rw [if_pos hk]
  · rw [if_neg hk]; unfold Cert.Spec.eblk; rw [dif_neg (by omega)]
theorem mk2_edge (t : Fin cfg0.N) (h9 : t.val = 9) (cc : Fin 100) (k : Fin 1024) :
    mk2 (X2 (F := Ideal) m c t) cc k = Cert.Spec.cblk (argC m c) t.val cc k := by
  unfold mk2; rw [X2_apply m c t (by omega) cc k]
  by_cases hk : k.val < 784
  · rw [if_pos hk]
  · rw [if_neg hk]; unfold Cert.Spec.cblk; rw [dif_neg (by omega)]

/-! The specification's accumulators, one block at a time. -/

theorem accQ_zero (W : Cert.Spec.ShW.Idx → EReal) (f f' : Fin 512) :
    Cert.Spec.accQ W 0 f f' = ∑ k : Fin 1024, Cert.Spec.eblk W 0 k f * Cert.Spec.eblk W 0 k f' := by
  unfold Cert.Spec.accQ; exact Finset.sum_range_one _
theorem accQ_succ (W : Cert.Spec.ShW.Idx → EReal) (n : ℕ) (f f' : Fin 512) :
    Cert.Spec.accQ W (n + 1) f f'
      = Cert.Spec.accQ W n f f' + ∑ k : Fin 1024, Cert.Spec.eblk W (n + 1) k f * Cert.Spec.eblk W (n + 1) k f' := by
  unfold Cert.Spec.accQ; exact Finset.sum_range_succ _ (n + 1)
theorem accP_zero (W : Cert.Spec.ShW.Idx → EReal) (Cn : Cert.Spec.ShC.Idx → EReal) (cc : Fin 100) (f : Fin 512) :
    Cert.Spec.accP W Cn 0 cc f = ∑ k : Fin 1024, Cert.Spec.cblk Cn 0 cc k * Cert.Spec.eblk W 0 k f := by
  unfold Cert.Spec.accP; exact Finset.sum_range_one _
theorem accP_succ (W : Cert.Spec.ShW.Idx → EReal) (Cn : Cert.Spec.ShC.Idx → EReal) (n : ℕ) (cc : Fin 100) (f : Fin 512) :
    Cert.Spec.accP W Cn (n + 1) cc f
      = Cert.Spec.accP W Cn n cc f + ∑ k : Fin 1024, Cert.Spec.cblk Cn (n + 1) cc k * Cert.Spec.eblk W (n + 1) k f := by
  unfold Cert.Spec.accP; exact Finset.sum_range_succ _ (n + 1)
theorem accN_zero (Cn : Cert.Spec.ShC.Idx → EReal) (cc : Fin 100) :
    Cert.Spec.accN Cn 0 cc = ∑ k : Fin 1024, Cert.Spec.cblk Cn 0 cc k * Cert.Spec.cblk Cn 0 cc k := by
  unfold Cert.Spec.accN; exact Finset.sum_range_one _
theorem accN_succ (Cn : Cert.Spec.ShC.Idx → EReal) (n : ℕ) (cc : Fin 100) :
    Cert.Spec.accN Cn (n + 1) cc
      = Cert.Spec.accN Cn n cc + ∑ k : Fin 1024, Cert.Spec.cblk Cn (n + 1) cc k * Cert.Spec.cblk Cn (n + 1) cc k := by
  unfold Cert.Spec.accN; exact Finset.sum_range_succ _ (n + 1)

/-- The three accumulators after point `n`, read at an index, are the specification's. -/
def AccAt (n : ℕ) (hn : n < cfg0.N) : Prop :=
  (∀ f f' : Fin 512, (scr (F := Ideal) m c n hn).1 (ix2 f f') = Cert.Spec.accQ (argW m c) n f f')
  ∧ (∀ (cc : Fin 100) (f : Fin 512), (scr (F := Ideal) m c n hn).2.1 (ix2 cc f) = Cert.Spec.accP (argW m c) (argC m c) n cc f)
  ∧ (∀ (cc : Fin 100) (u : Fin 1), (scr (F := Ideal) m c n hn).2.2 (ix2 cc u) = Cert.Spec.accN (argC m c) n cc)

/-- Point 0 stores the first block's products. -/
theorem acc_first (hn : 0 < cfg0.N) : AccAt m c 0 hn := by
  have e := scr_first (F := Ideal) m c ⟨0, hn⟩ rfl
  have e1 : (scr (F := Ideal) m c 0 hn).1 = k0_pay2 (X1 m c ⟨0, hn⟩) := congrArg Prod.fst e
  have e2 : (scr (F := Ideal) m c 0 hn).2.1 = k0_pay3 (X1 m c ⟨0, hn⟩) (X2 m c ⟨0, hn⟩) := congrArg (fun z => z.2.1) e
  have e3 : (scr (F := Ideal) m c 0 hn).2.2 = k0_pay4 (X2 m c ⟨0, hn⟩) := congrArg (fun z => z.2.2) e
  have h0 : (⟨0, hn⟩ : Fin cfg0.N).val ≤ 9 := Nat.zero_le _
  refine ⟨fun f f' => ?_, fun cc f => ?_, fun cc u => ?_⟩
  · rw [e1, pay2_apply, accQ_zero]; simp only [X1_apply m c ⟨0, hn⟩ h0]
  · rw [e2, pay3_apply, accP_zero]; simp only [X1_apply m c ⟨0, hn⟩ h0, X2_apply m c ⟨0, hn⟩ h0]
  · rw [e3, pay4_apply, accN_zero]; simp only [X2_apply m c ⟨0, hn⟩ h0]

/-- Points 1 … 8 add their block's products. -/
theorem acc_interior (n : ℕ) (hn : n + 1 < cfg0.N) (h : n + 1 < 9) (ih : AccAt m c n (Nat.lt_of_succ_lt hn)) :
    AccAt m c (n + 1) hn := by
  obtain ⟨ihQ, ihP, ihN⟩ := ih
  have e := scr_succ_interior m c n hn h
  have e1 : (scr (F := Ideal) m c (n + 1) hn).1 = k0_pay6 (X1 m c ⟨n + 1, hn⟩) (scr m c n (Nat.lt_of_succ_lt hn)).1 := congrArg Prod.fst e
  have e2 : (scr (F := Ideal) m c (n + 1) hn).2.1 = k0_pay7 (X1 m c ⟨n + 1, hn⟩) (X2 m c ⟨n + 1, hn⟩) (scr m c n (Nat.lt_of_succ_lt hn)).2.1 :=
    congrArg (fun z => z.2.1) e
  have e3 : (scr (F := Ideal) m c (n + 1) hn).2.2 = k0_pay8 (X2 m c ⟨n + 1, hn⟩) (scr m c n (Nat.lt_of_succ_lt hn)).2.2 :=
    congrArg (fun z => z.2.2) e
  have hle : (⟨n + 1, hn⟩ : Fin cfg0.N).val ≤ 9 := by show n + 1 ≤ 9; omega
  refine ⟨fun f f' => ?_, fun cc f => ?_, fun cc u => ?_⟩
  · rw [e1, pay6_apply, ihQ, accQ_succ]; simp only [X1_apply m c ⟨n + 1, hn⟩ hle]
  · rw [e2, pay7_apply, ihP, accP_succ]; simp only [X1_apply m c ⟨n + 1, hn⟩ hle, X2_apply m c ⟨n + 1, hn⟩ hle]
  · rw [e3, pay8_apply, ihN, accN_succ]; simp only [X2_apply m c ⟨n + 1, hn⟩ hle]

/-- Point 9 adds the last block's, masked to its 784 valid entries. -/
theorem acc_edge (n : ℕ) (hn : n + 1 < cfg0.N) (h : n + 1 = 9) (ih : AccAt m c n (Nat.lt_of_succ_lt hn)) :
    AccAt m c (n + 1) hn := by
  obtain ⟨ihQ, ihP, ihN⟩ := ih
  have e := scr_succ_edge m c n hn h
  have e1 : (scr (F := Ideal) m c (n + 1) hn).1 = k0_pay12 (X1 m c ⟨n + 1, hn⟩) (scr m c n (Nat.lt_of_succ_lt hn)).1 := congrArg Prod.fst e
  have e2 : (scr (F := Ideal) m c (n + 1) hn).2.1 = k0_pay13 (X1 m c ⟨n + 1, hn⟩) (X2 m c ⟨n + 1, hn⟩) (scr m c n (Nat.lt_of_succ_lt hn)).2.1 :=
    congrArg (fun z => z.2.1) e
  have e3 : (scr (F := Ideal) m c (n + 1) hn).2.2 = k0_pay14 (X2 m c ⟨n + 1, hn⟩) (scr m c n (Nat.lt_of_succ_lt hn)).2.2 :=
    congrArg (fun z => z.2.2) e
  have h9 : (⟨n + 1, hn⟩ : Fin cfg0.N).val = 9 := h
  refine ⟨fun f f' => ?_, fun cc f => ?_, fun cc u => ?_⟩
  · rw [e1, pay12_apply, ihQ, accQ_succ]; simp only [mk1_edge m c ⟨n + 1, hn⟩ h9]
  · rw [e2, pay13_apply, ihP, accP_succ]; simp only [mk1_edge m c ⟨n + 1, hn⟩ h9, mk2_edge m c ⟨n + 1, hn⟩ h9]
  · rw [e3, pay14_apply, ihN, accN_succ]; simp only [mk2_edge m c ⟨n + 1, hn⟩ h9]

/-- After point n ≤ 9 the accumulators hold the sums over the blocks 0 … n. -/
theorem scr_acc (n : ℕ) : ∀ (hn : n < cfg0.N), n ≤ 9 → AccAt m c n hn := by
  induction n with
  | zero => exact fun hn _ => acc_first m c hn
  | succ n ih =>
    intro hn h9
    by_cases h : n + 1 < 9
    · exact acc_interior m c n hn h (ih _ (by omega))
    · exact acc_edge m c n hn (by omega) (ih _ (by omega))

/-! ## The scores a point stores -/

theorem row_lt (t : Fin cfg0.N) (r : Fin 2048) : 2048 * (t.val - 10) + r.val < 4096 := by
  have := t.isLt; have hN : cfg0.N = 12 := N_0; have := r.isLt; omega

/-- Points 10 and 11 store the specification's scores of their block's rows. -/
theorem outAt_apply (t : Fin cfg0.N) (ht : 10 ≤ t.val) (r : Fin 2048) (cc : Fin 100) :
    outAt (F := Ideal) m c t (ix2 r cc)
      = Cert.Spec.Kout (argS m c) (argW m c) (argC m c) ⟨2048 * (t.val - 10) + r.val, row_lt t r⟩ cc := by
  obtain ⟨hQ, hP, hN⟩ := scr_acc m c 9 nine_lt le_rfl
  unfold outAt; rw [pay9_apply]; unfold Cert.Spec.Kout
  simp only [hQ, hP, hN, x0_apply m c t ht]

/-! ## The result array -/

/-- The specification's scores as the contents of the result array. -/
def scores : Cert.Spec.ShO.Idx → EReal := fun i => Cert.Spec.Kout (argS m c) (argW m c) (argC m c) (i 0) (i 1)

theorem flushed3_eq (t : Fin cfg0.N) (hf : (cfg0.win 3).flush t = true) :
    (dats (F := Ideal) m 0 c).flushed 3 t = ((cfg0.win 3).blk t).view.read (Elt Ideal) (scores m c) := by
  have ht : 10 ≤ t.val := (flush3_iff t).mp hf
  funext y
  obtain ⟨r, cc, rfl⟩ : ∃ (r : Fin 2048) (cc : Fin 100), y = ix2 r cc := ⟨y 0, y 1, eq_ix2 y⟩
  rw [blk3_read (scores m c) c t ht r cc]
  show (dats (F := Ideal) m 0 c).after 3 t (ix2 r cc) = _
  rw [after3, outAt_apply m c t ht r cc]
  rfl

/-- The result array after the run. -/
theorem final3 : (dats (F := Ideal) m 0 c).arrAt 3 cfg0.N = scores m c :=
  (dats (F := Ideal) m 0 c).arrAt_eq_of_cover 3 (scores m c) (flushed3_eq m c) (cover3 c)

/-- Over finite inputs the specification's scores are the cosine scores. -/
theorem scores_eq_G (hS : Cert.Spec.Finite (argS m c)) (hW : Cert.Spec.Finite (argW m c)) (hC : Cert.Spec.Finite (argC m c)) :
    scores m c = Cert.Spec.G (argS m c) (argW m c) (argC m c) := by
  funext i
  obtain ⟨b, cc, rfl⟩ : ∃ (b : Fin 4096) (cc : Fin 100), i = ix2 b cc := ⟨i 0, i 1, eq_ix2 i⟩
  exact Cert.KernelAlgebra.Kout_eq_G _ _ _ hS hW hC b cc

/-! ## The run, with the result named -/

theorem run (hfin : ∀ c : Dev nD, Cert.Spec.Finite (argS m c) ∧ Cert.Spec.Finite (argW m c) ∧ Cert.Spec.Finite (argC m c)) :
    θ_run defs (onTc (τ := τ) (main (F := Ideal))) ⟨m, fun _ => 0, ρ⟩ (fun r => ∀ c : Dev nD,
      r.2.mem ((c.tc : Thread nD τ).loc main_v0) = Cert.Spec.G (argS m c) (argW m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final3 m c).trans (scores_eq_G m c (hfin c).1 (hfin c).2.1 (hfin c).2.2)),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c)))⟩)
    (run_main (F := Ideal) m ρ)

end Cert.KernelIdeal.HandValue

end
-- ==== Proof.RefValue.lean ====
/-
  The reference side. The reference program computes, on arrays of extended reals,

      encoded(b, d) = Σ_f S(b, f) · W(d, f),
      rows:      encoded(b, d) / max(ε, sqrt(0 + Σ_d encoded(b, d)²)),
      centroids: Cn(c, d) / max(ε, sqrt(0 + Σ_d Cn(c, d)²)),
      result(b, c) = Σ_d (normalized row)(b, d) · (normalized centroid)(c, d).

  When every entry of the three arguments is a real number, every intermediate entry is the coercion of a real:
  the two clipped norms A = max(‖encoded(b, ·)‖, ε) and B = max(‖Cn(c, ·)‖, ε) are at least ε > 0, so the two
  divisions are products with real reciprocals, and the last sum is Σ_d (e_d / A) · (c_d / B) = (Σ_d e_d c_d) / (A · B),
  the clipped cosine score of the specification.
-/
import proofs.«119552_g15693810500123_cont_7to1_75_24_alg».proof.Proof.Gen.ReferenceIdeal.Read
import proofs.«119552_g15693810500123_cont_7to1_75_24_alg».proof.Proof.Spec

noncomputable section

namespace Cert.RefValue

open Idealize.ShloMosaic Idealize.ShloMosaic.ValueIdx Cert.ReferenceIdeal Cert.ReferenceIdeal.Read Cert.Spec
open scoped BigOperators

/-- The coercion of a finite real sum into the extended reals is the sum of the coercions. -/
theorem coe_sum {ι : Type} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- The clipping threshold is the positive dyadic rational 9223372 · 2⁻⁶³. -/
theorem epsE_val : epsE = (((9223372 : ℝ) * (2 : ℝ) ^ (-63 : ℤ) : ℝ) : EReal) := by
  simp [epsE, Ideal.ofBits, Ideal.ieee, -EReal.coe_mul]

theorem eps_val : eps = (9223372 : ℝ) * (2 : ℝ) ^ (-63 : ℤ) := by
  rw [eps, epsE_val, EReal.toReal_coe]

theorem eps_pos : 0 < eps := by
  rw [eps_val]; positivity

theorem epsE_coe : epsE = (eps : EReal) := by
  rw [eps_val]; exact epsE_val

/-- The clipped norm of the encoded sample b. -/
def rowNorm (s : ShS.Idx → ℝ) (w : ShW.Idx → ℝ) (b : Fin 4096) : ℝ :=
  max (Real.sqrt (∑ d : Fin 10000, enc s w b d * enc s w b d)) eps

/-- The clipped norm of the centroid c. -/
def cenNorm (cn : ShC.Idx → ℝ) (c : Fin 100) : ℝ :=
  max (Real.sqrt (∑ d : Fin 10000, cn (ix2 c d) * cn (ix2 c d))) eps

theorem rowNorm_pos (s : ShS.Idx → ℝ) (w : ShW.Idx → ℝ) (b : Fin 4096) : 0 < rowNorm s w b :=
  lt_of_lt_of_le eps_pos (le_max_right _ _)

theorem cenNorm_pos (cn : ShC.Idx → ℝ) (c : Fin 100) : 0 < cenNorm cn c :=
  lt_of_lt_of_le eps_pos (le_max_right _ _)

/-- max(ε, sqrt(0 + x)) for a sum of squares x is the coercion of the clipped real norm. -/
theorem clip_sqrt (x : ℝ) (hx : 0 ≤ x) :
    max epsE (Ideal.sqrt ((0 : EReal) + (x : EReal))) = ((max (Real.sqrt x) eps : ℝ) : EReal) := by
  rw [zero_add, Ideal.sqrt_coe, if_neg (not_lt.2 hx), epsE_coe, max_comm, coe_max]

section
variable (x0 : (⟨S4096x512, .f32⟩ : BufTy).Contents (Elt Ideal))
  (x1 : (⟨S10000x512, .f32⟩ : BufTy).Contents (Elt Ideal))
  (x2 : (⟨S100x10000, .f32⟩ : BufTy).Contents (Elt Ideal))
  (s : ShS.Idx → ℝ) (w : ShW.Idx → ℝ) (cn : ShC.Idx → ℝ)
  (hs : ∀ j, x0 j = (s j : EReal)) (hw : ∀ j, x1 j = (w j : EReal)) (hc : ∀ j, x2 j = (cn j : EReal))

include hs hw in
/-- The first product is the encoded sample. -/
theorem encoded_at (b : Fin 4096) (d : Fin 10000) :
    val_main_v1 (F := Ideal) x0 x1 (ix2 b d) = ((enc s w b d : ℝ) : EReal) := by
  have e1 : ∀ k : Fin 512, lidx_main_v1 (ix2 b d) k = ix2 b k := fun k =>
    funext fun a => Fin.ext (by match a with | ⟨0, _⟩ => rfl | ⟨1, _⟩ => rfl)
  have e2 : ∀ k : Fin 512, idx_main_v0 (ridx_main_v1 (ix2 b d) k) = ix2 d k := fun k =>
    funext fun a => Fin.ext (by match a with | ⟨0, _⟩ => rfl | ⟨1, _⟩ => rfl)
  rw [val_main_v1_apply, enc, coe_sum]
  refine Finset.sum_congr rfl fun k _ => ?_
  rw [val_main_v0_apply, e1, e2, hs, hw, EReal.coe_mul]

include hs hw in
/-- The row's sum of squares, as the reduction computes it from 0. -/
theorem rowsq_at (i : S4096.Idx) (b : Fin 4096) (hi : i 0 = b) :
    val_main_call0_v1 (F := Ideal) x0 x1 i
      = (0 : EReal) + ((∑ d : Fin 10000, enc s w b d * enc s w b d : ℝ) : EReal) := by
  have e : ∀ k : Fin 10000, idx_main_call0_v1 i k = ix2 b k := fun k =>
    funext fun a => Fin.ext (by match a with | ⟨0, _⟩ => exact congrArg Fin.val hi | ⟨1, _⟩ => rfl)
  rw [val_main_call0_v1_apply, val_main_call0_cst_apply, Ideal.ofBits_def, Ideal.ofBits_zero_f32, coe_sum]
  refine congrArg ((0 : EReal) + ·) (Finset.sum_congr rfl fun k _ => ?_)
  rw [val_main_call0_v0_apply, e, encoded_at x0 x1 s w hs hw, Ideal.mulf_def, EReal.coe_mul]

include hs hw in
/-- The clipped norm of the encoded row. -/
theorem rowclip_at (j : S4096x1.Idx) (b : Fin 4096) (hj : j 0 = b) :
    val_main_v3 (F := Ideal) x0 x1 j = ((rowNorm s w b : ℝ) : EReal) := by
  rw [val_main_v3_apply, val_main_call1_v1_apply, val_main_call1_v0_apply, val_main_cst_apply, val_main_v2_apply,
    val_main_call0_v2_apply, rowsq_at x0 x1 s w hs hw _ b (Fin.ext (congrArg Fin.val hj)), Ideal.ofBits_def,
    Ideal.maximumf_def, Ideal.hostUnary_sqrt_def]
  exact clip_sqrt _ (Finset.sum_nonneg fun d _ => mul_self_nonneg _)

include hs hw in
/-- The normalized encoded sample. -/
theorem rownormed_at (b : Fin 4096) (d : Fin 10000) :
    val_main_v5 (F := Ideal) x0 x1 (ix2 b d) = ((enc s w b d / rowNorm s w b : ℝ) : EReal) := by
  rw [val_main_v5_apply, val_main_v4_apply, rowclip_at x0 x1 s w hs hw _ b rfl, encoded_at x0 x1 s w hs hw,
    Ideal.hostDivf_def, Ideal.div_coe (rowNorm_pos s w b).ne', ← EReal.coe_mul, mul_one_div]

include hc in
/-- The centroid's sum of squares, as the reduction computes it from 0. -/
theorem censq_at (i : S100.Idx) (c : Fin 100) (hi : i 0 = c) :
    val_main_call2_v1 (F := Ideal) x2 i
      = (0 : EReal) + ((∑ d : Fin 10000, cn (ix2 c d) * cn (ix2 c d) : ℝ) : EReal) := by
  have e : ∀ k : Fin 10000, idx_main_call2_v1 i k = ix2 c k := fun k =>
    funext fun a => Fin.ext (by match a with | ⟨0, _⟩ => exact congrArg Fin.val hi | ⟨1, _⟩ => rfl)
  rw [val_main_call2_v1_apply, val_main_call2_cst_apply, Ideal.ofBits_def, Ideal.ofBits_zero_f32, coe_sum]
  refine congrArg ((0 : EReal) + ·) (Finset.sum_congr rfl fun k _ => ?_)
  rw [val_main_call2_v0_apply, e, hc, Ideal.mulf_def, EReal.coe_mul]

include hc in
/-- The clipped norm of the centroid. -/
theorem cenclip_at (j : S100x1.Idx) (c : Fin 100) (hj : j 0 = c) :
    val_main_v7 (F := Ideal) x2 j = ((cenNorm cn c : ℝ) : EReal) := by
  rw [val_main_v7_apply, val_main_call3_v1_apply, val_main_call3_v0_apply, val_main_cst_0_apply, val_main_v6_apply,
    val_main_call2_v2_apply, censq_at x2 cn hc _ c (Fin.ext (congrArg Fin.val hj)), Ideal.ofBits_def,
    Ideal.maximumf_def, Ideal.hostUnary_sqrt_def]
  exact clip_sqrt _ (Finset.sum_nonneg fun d _ => mul_self_nonneg _)

include hc in
/-- The normalized centroid. -/
theorem cennormed_at (c : Fin 100) (d : Fin 10000) :
    val_main_v9 (F := Ideal) x2 (ix2 c d) = ((cn (ix2 c d) / cenNorm cn c : ℝ) : EReal) := by
  rw [val_main_v9_apply, val_main_v8_apply, cenclip_at x2 cn hc _ c rfl, hc,
    Ideal.hostDivf_def, Ideal.div_coe (cenNorm_pos cn c).ne', ← EReal.coe_mul, mul_one_div]

include hs hw hc in
/-- The reference's entry (b, c) is the clipped cosine score of the real parts: the product of the two normalized
    matrices summed over d is Σ_d (e_d / A) · (c_d / B) = (Σ_d e_d c_d) / (A · B). -/
theorem ref_at (b : Fin 4096) (c : Fin 100) :
    val_main_v11 (F := Ideal) x0 x1 x2 (ix2 b c) = ((score s w cn b c : ℝ) : EReal) := by
  have e1 : ∀ k : Fin 10000, lidx_main_v11 (ix2 b c) k = ix2 b k := fun k =>
    funext fun a => Fin.ext (by match a with | ⟨0, _⟩ => rfl | ⟨1, _⟩ => rfl)
  have e2 : ∀ k : Fin 10000, idx_main_v10 (ridx_main_v11 (ix2 b c) k) = ix2 c k := fun k =>
    funext fun a => Fin.ext (by match a with | ⟨0, _⟩ => rfl | ⟨1, _⟩ => rfl)
  rw [val_main_v11_apply, score, Finset.sum_div, coe_sum]
  refine Finset.sum_congr rfl fun k _ => ?_
  rw [val_main_v10_apply, e1, e2, rownormed_at x0 x1 s w hs hw, cennormed_at x2 cn hc, ← EReal.coe_mul,
    div_mul_div_comm]
  rfl

end

/-- On finite arguments the reference program's result is the specification's score array. -/
theorem ref_is_G (x0 : (⟨Cert.ReferenceIdeal.S4096x512, .f32⟩ : BufTy).Contents (Elt Ideal))
    (x1 : (⟨Cert.ReferenceIdeal.S10000x512, .f32⟩ : BufTy).Contents (Elt Ideal))
    (x2 : (⟨Cert.ReferenceIdeal.S100x10000, .f32⟩ : BufTy).Contents (Elt Ideal))
    (h0 : Cert.Spec.Finite x0) (h1 : Cert.Spec.Finite x1) (h2 : Cert.Spec.Finite x2) :
    Cert.ReferenceIdeal.Read.val_main_v11 (F := Ideal) x0 x1 x2 = Cert.Spec.G x0 x1 x2 := by
  funext i
  obtain ⟨b, c, rfl⟩ : ∃ (b : Fin 4096) (c : Fin 100), i = ix2 b c := ⟨i 0, i 1, eq_ix2 i⟩
  have hs : ∀ j, x0 j = (((x0 j).toReal : ℝ) : EReal) := fun j => by
    obtain ⟨r, hr⟩ := h0 j; rw [hr, EReal.toReal_coe]
  have hw : ∀ j, x1 j = (((x1 j).toReal : ℝ) : EReal) := fun j => by
    obtain ⟨r, hr⟩ := h1 j; rw [hr, EReal.toReal_coe]
  have hc : ∀ j, x2 j = (((x2 j).toReal : ℝ) : EReal) := fun j => by
    obtain ⟨r, hr⟩ := h2 j; rw [hr, EReal.toReal_coe]
  exact ref_at x0 x1 x2 _ _ _ hs hw hc b c

end Cert.RefValue

end
-- ==== Proof.FiniteInputs.lean ====
/-
  From the precondition to finiteness. The precondition is the conjunction, over the three arguments, of
  "all entries x satisfy |x| < +∞". An extended real with |x| < +∞ is a real number (|⊥| = |⊤| = ⊤), so under the
  precondition each of the three arrays has only real entries.
-/
import proofs.«119552_g15693810500123_cont_7to1_75_24_alg».proof.Pre_finite_inputs
import proofs.«119552_g15693810500123_cont_7to1_75_24_alg».proof.Proof.Spec
import Idealize.ShloMosaic.Lib.ReduceAll
import Idealize.ShloMosaic.PureOps.Ideal.Laws

noncomputable section

namespace Cert.FiniteInputs

open Idealize.ShloMosaic Idealize.ShloMosaic.ValueIdx Cert.Spec

/-- The result shape of a reduction over every axis has one index. -/
instance : Subsingleton Cert.Pre_finite_inputs.S_.Idx := ⟨fun a b => funext fun d => d.elim0⟩

/-- |x| below +∞ says that x is a real number: the f32 word 0x7F800000 denotes +∞, and |⊥| = |⊤| = ⊤. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The precondition is the conjunction, over the three arguments, of "every entry has |x| < +∞": each argument
    is an array of real numbers. -/
theorem finite_of_pre [Cert.Pre_finite_inputs.Facts]
    (a0 : FVec Ideal Cert.Pre_finite_inputs.S4096x512 .f32) (a1 : FVec Ideal Cert.Pre_finite_inputs.S10000x512 .f32)
    (a2 : FVec Ideal Cert.Pre_finite_inputs.S100x10000 .f32)
    (h : Cert.Pre_finite_inputs.fn (F := Ideal) a0 a1 a2 = fun _ => 1#1) :
    Cert.Spec.Finite a0 ∧ Cert.Spec.Finite a1 ∧ Cert.Spec.Finite a2 := by
  have h' := congrFun h ValueIdx.ix0
  dsimp only [Cert.Pre_finite_inputs.fn] at h'
  obtain ⟨h01, hC⟩ := IntOp.andi_eq_one.1 h'
  obtain ⟨hA, hB⟩ := IntOp.andi_eq_one.1 h01
  exact ⟨fun j => real_of_abs_lt_inf _ (Host.reduce_andi_all _ _ _ _ _ hA j),
    fun j => real_of_abs_lt_inf _ (Host.reduce_andi_all _ _ _ _ _ hB j),
    fun j => real_of_abs_lt_inf _ (Host.reduce_andi_all _ _ _ _ _ hC j)⟩

end Cert.FiniteInputs

end
-- ==== Proof.lean ====
/-
  A fused projection-encode and cosine-score kernel against its reference.

  Reference: encode each sample through the projection rows, enc = S Wᵀ; divide each encoded row by its norm
  clipped below by ε, and each centroid row by its clipped norm; the scores are the product of the two normalized
  matrices. Kernel: never form enc. Sweep the hyperdimension in ten blocks accumulating Q = Wᵀ W, P = Cn W and the
  centroids' squared norms (the last block holds 784 of 1024 entries; the body masks the rest to zero); then per
  block of samples ‖enc(b, ·)‖² = Σ_f' (Σ_f S(b, f) Q(f, f')) S(b, f'), the raw score is Σ_f S(b, f) P(c, f), and the
  result is the raw score over the product of the two clipped norms.

  Over the extended reals the two agree wherever the inputs are finite: the sums reassociate (distributivity needs
  finiteness, which the precondition gives), the ten blocks tile the 10000 entries, Σ_d enc² is nonnegative so the
  kernel's extra max(·, 0) is the identity, and dividing each factor by its positive clipped norm before summing is
  dividing the sum by their product. A change of float format is the identity there, so the kernel's narrowing of
  the matrix operands says nothing.

  The three frames: both kernels run the same body, proved once for any float instance (Proof/IdealBody.lean and
  its word-level twin Proof/BitsBody.lean); the reference's frame is its run with the result dropped. The ideal
  pass rewrote nothing, so `preserves` is trivial.
-/
import proofs.«119552_g15693810500123_cont_7to1_75_24_alg».proof.Defs
import proofs.«119552_g15693810500123_cont_7to1_75_24_alg».proof.Proof.Gen.Kernel
import proofs.«119552_g15693810500123_cont_7to1_75_24_alg».proof.Proof.Gen.KernelIdeal
import proofs.«119552_g15693810500123_cont_7to1_75_24_alg».proof.Proof.Gen.ReferenceIdeal
import proofs.«119552_g15693810500123_cont_7to1_75_24_alg».proof.Proof.Gen.Pre_finite_inputs
import proofs.«119552_g15693810500123_cont_7to1_75_24_alg».proof.Proof.Gen.ReferenceIdeal.Run
import proofs.«119552_g15693810500123_cont_7to1_75_24_alg».proof.Proof.Gen.ReferenceIdeal.Read
import proofs.«119552_g15693810500123_cont_7to1_75_24_alg».proof.Proof.BitsBody
import proofs.«119552_g15693810500123_cont_7to1_75_24_alg».proof.Proof.IdealValue
import proofs.«119552_g15693810500123_cont_7to1_75_24_alg».proof.Proof.RefValue
import proofs.«119552_g15693810500123_cont_7to1_75_24_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the inputs are finite; then the kernel's result array is the score array `G` of its
    arguments, and so is the reference's of the same arguments. -/
theorem algebraic : Cert.algebraic_KernelIdeal_ReferenceIdeal := by
  intro m ρ m' ρ' hpre hagree
  have hfin : ∀ c : Dev Cert.KernelIdeal.nD,
      Cert.Spec.Finite (Cert.KernelIdeal.HandValue.argS m c) ∧ Cert.Spec.Finite (Cert.KernelIdeal.HandValue.argW m c)
        ∧ Cert.Spec.Finite (Cert.KernelIdeal.HandValue.argC m c) :=
    fun c => Cert.FiniteInputs.finite_of_pre _ _ _ (hpre c)
  refine ⟨fun c => Cert.Spec.G (Cert.KernelIdeal.HandValue.argS m c) (Cert.KernelIdeal.HandValue.argW m c)
    (Cert.KernelIdeal.HandValue.argC m c), Cert.KernelIdeal.HandValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2]
  exact Cert.RefValue.ref_is_G _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
